-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000x3 : Shape := ⟨2, ![8000, 3]⟩
abbrev S16000x3 : Shape := ⟨2, ![16000, 3]⟩
abbrev S2500x3 : Shape := ⟨2, ![2500, 3]⟩
abbrev S4000x3 : Shape := ⟨2, ![4000, 3]⟩
abbrev S4000 : Shape := ⟨1, ![4000]⟩
abbrev S4000x8x1 : Shape := ⟨3, ![4000, 8, 1]⟩
abbrev S_ : Shape := ⟨0, ![]⟩

class Facts : Prop where
  bcast_S_S8000x3 : S_.BroadcastsInDim S8000x3 (![] : Fin 0 → Fin S8000x3.rank)
  reducesTo_S8000x3_S_d0_1 : S8000x3.ReducesTo [0, 1] S_
  h_S_ : 0 < S_.numel
  bcast_S_S2500x3 : S_.BroadcastsInDim S2500x3 (![] : Fin 0 → Fin S2500x3.rank)
  reducesTo_S2500x3_S_d0_1 : S2500x3.ReducesTo [0, 1] S_
  bcast_S_S4000 : S_.BroadcastsInDim S4000 (![] : Fin 0 → Fin S4000.rank)
  reducesTo_S4000_S_d0 : S4000.ReducesTo [0] S_
  bcast_S_S4000x8x1 : S_.BroadcastsInDim S4000x8x1 (![] : Fin 0 → Fin S4000x8x1.rank)
  reducesTo_S4000x8x1_S_d0_1_2 : S4000x8x1.ReducesTo [0, 1, 2] S_

variable [Facts]

def fn_part1 {F : FTy → Type} [FloatOps F] (main_arg5 : FVec F S4000x8x1 .f32) (main_arg6 : FVec F S4000x8x1 .f32) (main_v13 : IVec S_ 1) (main_v16 : IVec S4000x8x1 1) : IVec S_ 1 :=
  let main_c_5 : IVec S_ 1 := constantI S_ 1 1#1
  let main_v17 : IVec S_ 1 := (fun x v => Host.reduce IntOp.andi x v reducesTo_S4000x8x1_S_d0_1_2 h_S_) main_v16 main_c_5
  let main_v18 : IVec S_ 1 := andi main_v13 main_v17
  let main_v19 : FVec F S4000x8x1 .f32 := Host.absf main_arg6
  let main_cst_6 : FVec F S_ .f32 := constant S_ .f32 0x7F800000#32
  let main_v20 : FVec F S4000x8x1 .f32 := broadcastInDim S4000x8x1 ![] bcast_S_S4000x8x1 main_cst_6
  let main_v21 : IVec S4000x8x1 1 := cmpf .olt main_v19 main_v20
  let main_c_7 : IVec S_ 1 := constantI S_ 1 1#1
  let main_v22 : IVec S_ 1 := (fun x v => Host.reduce IntOp.andi x v reducesTo_S4000x8x1_S_d0_1_2 h_S_) main_v21 main_c_7
  let main_v23 : IVec S_ 1 := andi main_v18 main_v22
  let main_cst_8 : FVec F S_ .f32 := constant S_ .f32 0x00000000#32
  let main_v24 : FVec F S4000x8x1 .f32 := broadcastInDim S4000x8x1 ![] bcast_S_S4000x8x1 main_cst_8
  let main_v25 : IVec S4000x8x1 1 := cmpf .oge main_arg5 main_v24
  let main_c_9 : IVec S_ 1 := constantI S_ 1 1#1
  let main_v26 : IVec S_ 1 := (fun x v => Host.reduce IntOp.andi x v reducesTo_S4000x8x1_S_d0_1_2 h_S_) main_v25 main_c_9
  let main_v27 : IVec S_ 1 := andi main_v23 main_v26
  main_v27

def fn {F : FTy → Type} [FloatOps F] (main_arg0 : FVec F S8000x3 .f32) (main_arg1 : IVec S16000x3 32) (main_arg2 : FVec F S2500x3 .f32) (main_arg3 : IVec S4000x3 32) (main_arg4 : FVec F S4000 .f32) (main_arg5 : FVec F S4000x8x1 .f32) (main_arg6 : FVec F S4000x8x1 .f32) : IVec S_ 1 :=
  let main_v0 : FVec F S8000x3 .f32 := Host.absf main_arg0
  let main_cst : FVec F S_ .f32 := constant S_ .f32 0x7F800000#32
  let main_v1 : FVec F S8000x3 .f32 := broadcastInDim S8000x3 ![] bcast_S_S8000x3 main_cst
  let main_v2 : IVec S8000x3 1 := cmpf .olt main_v0 main_v1
  let main_c : IVec S_ 1 := constantI S_ 1 1#1
  let main_v3 : IVec S_ 1 := (fun x v => Host.reduce IntOp.andi x v reducesTo_S8000x3_S_d0_1 h_S_) main_v2 main_c
  let main_v4 : FVec F S2500x3 .f32 := Host.absf main_arg2
  let main_cst_0 : FVec F S_ .f32 := constant S_ .f32 0x7F800000#32
  let main_v5 : FVec F S2500x3 .f32 := broadcastInDim S2500x3 ![] bcast_S_S2500x3 main_cst_0
  let main_v6 : IVec S2500x3 1 := cmpf .olt main_v4 main_v5
  let main_c_1 : IVec S_ 1 := constantI S_ 1 1#1
  let main_v7 : IVec S_ 1 := (fun x v => Host.reduce IntOp.andi x v reducesTo_S2500x3_S_d0_1 h_S_) main_v6 main_c_1
  let main_v8 : IVec S_ 1 := andi main_v3 main_v7
  let main_v9 : FVec F S4000 .f32 := Host.absf main_arg4
  let main_cst_2 : FVec F S_ .f32 := constant S_ .f32 0x7F800000#32
  let main_v10 : FVec F S4000 .f32 := broadcastInDim S4000 ![] bcast_S_S4000 main_cst_2
  let main_v11 : IVec S4000 1 := cmpf .olt main_v9 main_v10
  let main_c_3 : IVec S_ 1 := constantI S_ 1 1#1
  let main_v12 : IVec S_ 1 := (fun x v => Host.reduce IntOp.andi x v reducesTo_S4000_S_d0 h_S_) main_v11 main_c_3
  let main_v13 : IVec S_ 1 := andi main_v8 main_v12
  let main_v14 : FVec F S4000x8x1 .f32 := Host.absf main_arg5
  let main_cst_4 : FVec F S_ .f32 := constant S_ .f32 0x7F800000#32
  let main_v15 : FVec F S4000x8x1 .f32 := broadcastInDim S4000x8x1 ![] bcast_S_S4000x8x1 main_cst_4
  let main_v16 : IVec S4000x8x1 1 := cmpf .olt main_v14 main_v15
  fn_part1 (F := F) main_arg5 main_arg6 main_v13 main_v16
-- ==== Kernel.lean ====
abbrev S8000x3 : Shape := ⟨2, ![8000, 3]⟩
abbrev S16000x3 : Shape := ⟨2, ![16000, 3]⟩
abbrev S2500x3 : Shape := ⟨2, ![2500, 3]⟩
abbrev S4000x3 : Shape := ⟨2, ![4000, 3]⟩
abbrev S4000 : Shape := ⟨1, ![4000]⟩
abbrev S4000x8x1 : Shape := ⟨3, ![4000, 8, 1]⟩
abbrev S_ : Shape := ⟨0, ![]⟩
abbrev S4000x3x1 : Shape := ⟨3, ![4000, 3, 1]⟩
abbrev S4000x3x3 : Shape := ⟨3, ![4000, 3, 3]⟩
abbrev S16000x3x1 : Shape := ⟨3, ![16000, 3, 1]⟩
abbrev S16000x3x3 : Shape := ⟨3, ![16000, 3, 3]⟩
abbrev S3x16000 : Shape := ⟨2, ![3, 16000]⟩
abbrev S4000x1 : Shape := ⟨2, ![4000, 1]⟩
abbrev S160x3 : Shape := ⟨2, ![160, 3]⟩
abbrev S160x1 : Shape := ⟨2, ![160, 1]⟩
abbrev S1x16000 : Shape := ⟨2, ![1, 16000]⟩
abbrev S160x16000 : Shape := ⟨2, ![160, 16000]⟩
abbrev S160 : Shape := ⟨1, ![160]⟩
abbrev S4000x1x3 : Shape := ⟨3, ![4000, 1, 3]⟩
abbrev S4000x8x3 : Shape := ⟨3, ![4000, 8, 3]⟩
abbrev S32000x3 : Shape := ⟨2, ![32000, 3]⟩
abbrev S3x8000 : Shape := ⟨2, ![3, 8000]⟩
abbrev S32000x1 : Shape := ⟨2, ![32000, 1]⟩
abbrev S256x3 : Shape := ⟨2, ![256, 3]⟩
abbrev S256x1 : Shape := ⟨2, ![256, 1]⟩
abbrev S1x8000 : Shape := ⟨2, ![1, 8000]⟩
abbrev S256x8000 : Shape := ⟨2, ![256, 8000]⟩
abbrev S256 : Shape := ⟨1, ![256]⟩
abbrev S32000 : Shape := ⟨1, ![32000]⟩
abbrev S4000x8 : Shape := ⟨2, ![4000, 8]⟩

abbrev nBuf : Space → Nat
  | .hbm => 106
  | .vmem => 10
  | .smem => 0
  | _ => 0

abbrev bufTy : (tb : Table) → Fin (tcTables nBuf tb) → BufTy
  | .hbm, ⟨0, _⟩ => ⟨S8000x3, .f32⟩
  | .hbm, ⟨1, _⟩ => ⟨S16000x3, .i32⟩
  | .hbm, ⟨2, _⟩ => ⟨S2500x3, .f32⟩
  | .hbm, ⟨3, _⟩ => ⟨S4000x3, .i32⟩
  | .hbm, ⟨4, _⟩ => ⟨S4000, .f32⟩
  | .hbm, ⟨5, _⟩ => ⟨S4000x8x1, .f32⟩
  | .hbm, ⟨6, _⟩ => ⟨S4000x8x1, .f32⟩
  | .hbm, ⟨7, _⟩ => ⟨S_, .i32⟩
  | .hbm, ⟨8, _⟩ => ⟨S4000x3, .i32⟩
  | .hbm, ⟨9, _⟩ => ⟨S4000x3, .i1⟩
  | .hbm, ⟨10, _⟩ => ⟨S_, .i32⟩
  | .hbm, ⟨11, _⟩ => ⟨S4000x3, .i32⟩
  | .hbm, ⟨12, _⟩ => ⟨S4000x3, .i32⟩
  | .hbm, ⟨13, _⟩ => ⟨S4000x3, .i32⟩
  | .hbm, ⟨14, _⟩ => ⟨S4000x3x1, .i32⟩
  | .hbm, ⟨15, _⟩ => ⟨S4000x3x3, .f32⟩
  | .hbm, ⟨16, _⟩ => ⟨S_, .f32⟩
  | .hbm, ⟨17, _⟩ => ⟨S4000x3, .f32⟩
  | .hbm, ⟨18, _⟩ => ⟨S_, .f32⟩
  | .hbm, ⟨19, _⟩ => ⟨S4000x3, .f32⟩
  | .hbm, ⟨20, _⟩ => ⟨S4000x3, .f32⟩
  | .hbm, ⟨21, _⟩ => ⟨S_, .i32⟩
  | .hbm, ⟨22, _⟩ => ⟨S16000x3, .i32⟩
  | .hbm, ⟨23, _⟩ => ⟨S16000x3, .i1⟩
  | .hbm, ⟨24, _⟩ => ⟨S_, .i32⟩
  | .hbm, ⟨25, _⟩ => ⟨S16000x3, .i32⟩
  | .hbm, ⟨26, _⟩ => ⟨S16000x3, .i32⟩
  | .hbm, ⟨27, _⟩ => ⟨S16000x3, .i32⟩
  | .hbm, ⟨28, _⟩ => ⟨S16000x3x1, .i32⟩
  | .hbm, ⟨29, _⟩ => ⟨S16000x3x3, .f32⟩
  | .hbm, ⟨30, _⟩ => ⟨S_, .f32⟩
  | .hbm, ⟨31, _⟩ => ⟨S16000x3, .f32⟩
  | .hbm, ⟨32, _⟩ => ⟨S_, .f32⟩
  | .hbm, ⟨33, _⟩ => ⟨S16000x3, .f32⟩
  | .hbm, ⟨34, _⟩ => ⟨S16000x3, .f32⟩
  | .hbm, ⟨35, _⟩ => ⟨S3x16000, .f32⟩
  | .hbm, ⟨36, _⟩ => ⟨S4000x1, .f32⟩
  | .hbm, ⟨37, _⟩ => ⟨S4000, .f32⟩
  | .hbm, ⟨38, _⟩ => ⟨S4000, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4000, .f32⟩
  | .hbm, ⟨43, _⟩ => ⟨S4000, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .i32⟩
  | .hbm, ⟨50, _⟩ => ⟨S4000x3, .i32⟩
  | .hbm, ⟨51, _⟩ => ⟨S4000x3, .i1⟩
  | .hbm, ⟨52, _⟩ => ⟨S_, .i32⟩
  | .hbm, ⟨53, _⟩ => ⟨S4000x3, .i32⟩
  | .hbm, ⟨54, _⟩ => ⟨S4000x3, .i32⟩
  | .hbm, ⟨55, _⟩ => ⟨S4000x3, .i32⟩
  | .hbm, ⟨56, _⟩ => ⟨S4000x3x1, .i32⟩
  | .hbm, ⟨57, _⟩ => ⟨S4000x3x3, .f32⟩
  | .hbm, ⟨58, _⟩ => ⟨S4000x8x1, .f32⟩
  | .hbm, ⟨59, _⟩ => ⟨S_, .f32⟩
  | .hbm, ⟨60, _⟩ => ⟨S4000x8x1, .f32⟩
  | .hbm, ⟨61, _⟩ => ⟨S4000x8x1, .f32⟩
  | .hbm, ⟨62, _⟩ => ⟨S_, .f32⟩
  | .hbm, ⟨63, _⟩ => ⟨S4000x8x1, .f32⟩
  | .hbm, ⟨64, _⟩ => ⟨S4000x8x1, .f32⟩
  | .hbm, ⟨65, _⟩ => ⟨S4000x8x1, .f32⟩
  | .hbm, ⟨66, _⟩ => ⟨S4000x8x1, .f32⟩
  | .hbm, ⟨67, _⟩ => ⟨S4000x1x3, .f32⟩
  | .hbm, ⟨68, _⟩ => ⟨S4000x3, .f32⟩
  | .hbm, ⟨69, _⟩ => ⟨S4000x1x3, .f32⟩
  | .hbm, ⟨70, _⟩ => ⟨S4000x8x3, .f32⟩
  | .hbm, ⟨71, _⟩ => ⟨S4000x8x3, .f32⟩
  | .hbm, ⟨72, _⟩ => ⟨S4000x8x3, .f32⟩
  | .hbm, ⟨73, _⟩ => ⟨S4000x1x3, .f32⟩
  | .hbm, ⟨74, _⟩ => ⟨S4000x3, .f32⟩
  | .hbm, ⟨75, _⟩ => ⟨S4000x1x3, .f32⟩
  | .hbm, ⟨76, _⟩ => ⟨S4000x8x3, .f32⟩
  | .hbm, ⟨77, _⟩ => ⟨S4000x8x3, .f32⟩
  | .hbm, ⟨78, _⟩ => ⟨S4000x8x3, .f32⟩
  | .hbm, ⟨79, _⟩ => ⟨S4000x8x3, .f32⟩
  | .hbm, ⟨80, _⟩ => ⟨S4000x1x3, .f32⟩
  | .hbm, ⟨81, _⟩ => ⟨S4000x3, .f32⟩
  | .hbm, ⟨82, _⟩ => ⟨S4000x1x3, .f32⟩
  | .hbm, ⟨83, _⟩ => ⟨S4000x8x3, .f32⟩
  | .hbm, ⟨84, _⟩ => ⟨S4000x8x3, .f32⟩
  | .hbm, ⟨85, _⟩ => ⟨S4000x8x3, .f32⟩
  | .hbm, ⟨86, _⟩ => ⟨S4000x8x3, .f32⟩
  | .hbm, ⟨87, _⟩ => ⟨S32000x3, .f32⟩
  | .hbm, ⟨88, _⟩ => ⟨S3x8000, .f32⟩
  | .hbm, ⟨89, _⟩ => ⟨S32000x1, .f32⟩
  | .hbm, ⟨90, _⟩ => ⟨S32000, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S32000, .f32⟩
  | .hbm, ⟨96, _⟩ => ⟨S32000, .f32⟩
  | .hbm, ⟨97, _⟩ => ⟨S_, .f32⟩
  | .hbm, ⟨98, _⟩ => ⟨S32000, .f32⟩
  | .hbm, ⟨99, _⟩ => ⟨S32000, .f32⟩
  | .hbm, ⟨100, _⟩ => ⟨S4000x8, .f32⟩
  | .hbm, ⟨101, _⟩ => ⟨S32000, .f32⟩
  | .hbm, ⟨102, _⟩ => ⟨S32000, .f32⟩
  | .hbm, ⟨103, _⟩ => ⟨S_, .f32⟩
  | .hbm, ⟨104, _⟩ => ⟨S_, .f32⟩
  | .hbm, ⟨105, _⟩ => ⟨S_, .f32⟩
  | .local _ .vmem, ⟨0, _⟩ => ⟨S160x3, .f32⟩
  | .local _ .vmem, ⟨1, _⟩ => ⟨S160x3, .f32⟩
  | .local _ .vmem, ⟨2, _⟩ => ⟨S3x16000, .f32⟩
  | .local _ .vmem, ⟨3, _⟩ => ⟨S160x1, .f32⟩
  | .local _ .vmem, ⟨4, _⟩ => ⟨S160x1, .f32⟩
  | .local _ .vmem, ⟨5, _⟩ => ⟨S256x3, .f32⟩
  | .local _ .vmem, ⟨6, _⟩ => ⟨S256x3, .f32⟩
  | .local _ .vmem, ⟨7, _⟩ => ⟨S3x8000, .f32⟩
  | .local _ .vmem, ⟨8, _⟩ => ⟨S256x1, .f32⟩
  | .local _ .vmem, ⟨9, _⟩ => ⟨S256x1, .f32⟩
  | _, _ => ⟨S8000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_c_10 : Ref sig .tc := ⟨.hbm, 49, rfl⟩
abbrev main_v30 : Ref sig .tc := ⟨.hbm, 50, rfl⟩
abbrev main_v31 : Ref sig .tc := ⟨.hbm, 51, rfl⟩
abbrev main_c_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_12 : Ref sig .tc := ⟨.hbm, 59, rfl⟩
abbrev main_v38 : Ref sig .tc := ⟨.hbm, 60, rfl⟩
abbrev main_v39 : Ref sig .tc := ⟨.hbm, 61, rfl⟩
abbrev main_cst_13 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_17 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S160x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x8000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S4000x3 : S_.BroadcastsInDim S4000x3 (![] : Fin 0 → Fin S4000x3.rank)
  bcast_S4000x3_S4000x3x1_0_1 : S4000x3.BroadcastsInDim S4000x3x1 (![0, 1] : Fin 2 → Fin S4000x3x1.rank)
  reducesTo_S4000x3x3_S4000x3_d1 : S4000x3x3.ReducesTo [1] S4000x3
  h_S_ : 0 < S_.numel
  bcast_S_S16000x3 : S_.BroadcastsInDim S16000x3 (![] : Fin 0 → Fin S16000x3.rank)
  bcast_S16000x3_S16000x3x1_0_1 : S16000x3.BroadcastsInDim S16000x3x1 (![0, 1] : Fin 2 → Fin S16000x3x1.rank)
  reducesTo_S16000x3x3_S16000x3_d1 : S16000x3x3.ReducesTo [1] S16000x3
  transposes_S16000x3_S3x16000_1_0 : S16000x3.Transposes [1, 0] S3x16000
  inb_S160x3_S160x3_0_0 : ∀ a, (![0, 0] : Fin 2 → Nat) a + S160x3.size a ≤ S160x3.size a
  h_S160x3 : 0 < S160x3.numel
  shapeCasts_S160x3_S160x3 : S160x3.ShapeCasts S160x3
  inb_S3x16000_S3x16000_0_0 : ∀ a, (![0, 0] : Fin 2 → Nat) a + S3x16000.size a ≤ S3x16000.size a
  h_S3x16000 : 0 < S3x16000.numel
  shapeCasts_S3x16000_S3x16000 : S3x16000.ShapeCasts S3x16000
  slices_S160x3_o0_0_S160x1 : S160x3.Slices ![0, 0] S160x1
  slices_S160x3_o0_1_S160x1 : S160x3.Slices ![0, 1] S160x1
  slices_S160x3_o0_2_S160x1 : S160x3.Slices ![0, 2] S160x1
  slices_S3x16000_o0_0_S1x16000 : S3x16000.Slices ![0, 0] S1x16000
  slices_S3x16000_o1_0_S1x16000 : S3x16000.Slices ![1, 0] S1x16000
  slices_S3x16000_o2_0_S1x16000 : S3x16000.Slices ![2, 0] S1x16000
  broadcasts_S160x1_S160x16000 : S160x1.Broadcasts S160x16000
  broadcasts_S1x16000_S160x16000 : S1x16000.Broadcasts S160x16000
  reduces_S160x16000_S160 : S160x16000.Reduces [1] S160
  shapeCasts_S160_S160x1 : S160.ShapeCasts S160x1
  inb_S160x1_S160x1_0_0 : ∀ a, (![0, 0] : Fin 2 → Nat) a + S160x1.size a ≤ S160x1.size a
  h_S160x1 : 0 < S160x1.numel
  shapeCasts_S4000x1_S4000 : S4000x1.ShapeCasts S4000
  reducesTo_S4000_S_d0 : S4000.ReducesTo [0] S_
  bcast_S_S4000 : S_.BroadcastsInDim S4000 (![] : Fin 0 → Fin S4000.rank)
  bcast_S_S4000x8x1 : S_.BroadcastsInDim S4000x8x1 (![] : Fin 0 → Fin S4000x8x1.rank)
  slices_S4000x3x3_S4000x1x3_0_0_0 : S4000x3x3.Slices ![0, 0, 0] S4000x1x3
  shapeCasts_S4000x1x3_S4000x3 : S4000x1x3.ShapeCasts S4000x3
  bcast_S4000x3_S4000x1x3_0_2 : S4000x3.BroadcastsInDim S4000x1x3 (![0, 2] : Fin 2 → Fin S4000x1x3.rank)
  bcast_S4000x8x1_S4000x8x3_0_1_2 : S4000x8x1.BroadcastsInDim S4000x8x3 (![0, 1, 2] : Fin 3 → Fin S4000x8x3.rank)
  bcast_S4000x1x3_S4000x8x3_0_1_2 : S4000x1x3.BroadcastsInDim S4000x8x3 (![0, 1, 2] : Fin 3 → Fin S4000x8x3.rank)
  slices_S4000x3x3_S4000x1x3_0_1_0 : S4000x3x3.Slices ![0, 1, 0] S4000x1x3
  slices_S4000x3x3_S4000x1x3_0_2_0 : S4000x3x3.Slices ![0, 2, 0] S4000x1x3
  shapeCasts_S4000x8x3_S32000x3 : S4000x8x3.ShapeCasts S32000x3
  transposes_S8000x3_S3x8000_1_0 : S8000x3.Transposes [1, 0] S3x8000
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S3x8000_S3x8000_0_0 : ∀ a, (![0, 0] : Fin 2 → Nat) a + S3x8000.size a ≤ S3x8000.size a
  h_S3x8000 : 0 < S3x8000.numel
  shapeCasts_S3x8000_S3x8000 : S3x8000.ShapeCasts S3x8000
  slices_S256x3_o0_0_S256x1 : S256x3.Slices ![0, 0] S256x1
  slices_S256x3_o0_1_S256x1 : S256x3.Slices ![0, 1] S256x1
  slices_S256x3_o0_2_S256x1 : S256x3.Slices ![0, 2] S256x1
  slices_S3x8000_o0_0_S1x8000 : S3x8000.Slices ![0, 0] S1x8000
  slices_S3x8000_o1_0_S1x8000 : S3x8000.Slices ![1, 0] S1x8000
  slices_S3x8000_o2_0_S1x8000 : S3x8000.Slices ![2, 0] S1x8000
  broadcasts_S256x1_S256x8000 : S256x1.Broadcasts S256x8000
  broadcasts_S1x8000_S256x8000 : S1x8000.Broadcasts S256x8000
  reduces_S256x8000_S256 : S256x8000.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S32000x1_S32000 : S32000x1.ShapeCasts S32000
  reducesTo_S32000_S_d0 : S32000.ReducesTo [0] S_
  bcast_S_S32000 : S_.BroadcastsInDim S32000 (![] : Fin 0 → Fin S32000.rank)
  bcast_S4000_S4000x8_0 : S4000.BroadcastsInDim S4000x8 (![0] : Fin 1 → Fin S4000x8.rank)
  shapeCasts_S4000x8_S32000 : S4000x8.ShapeCasts S32000
  gather_S2500x3_S4000x3x1_S4000x3x3_2_0_n_n_0_2_13_wf : GatherDims.WF S2500x3 S4000x3x1 S4000x3x3 [2] [0] [] [0] [] 2 ![1, 3]
  gather_S8000x3_S16000x3x1_S16000x3x3_2_0_n_n_0_2_13_wf : GatherDims.WF S8000x3 S16000x3x1 S16000x3x3 [2] [0] [] [0] [] 2 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S160x3.size a ≤ S4000x3.size a
  hwx0_0 : ∀ i : grid0.Coords, EltTy.bits .f32 = 32 ∨ (Rect.block (s := S4000x3) S160x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16000.size a ≤ S3x16000.size a
  hwx0_1 : ∀ i : grid0.Coords, EltTy.bits .f32 = 32 ∨ (Rect.block (s := S3x16000) S3x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S160x1.size a ≤ S4000x1.size a
  hwx0_2 : ∀ i : grid0.Coords, EltTy.bits .f32 = 32 ∨ (Rect.block (s := S4000x1) S160x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3.size a ≤ S32000x3.size a
  hwx1_0 : ∀ i : grid1.Coords, EltTy.bits .f32 = 32 ∨ (Rect.block (s := S32000x3) S256x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x8000.size a ≤ S3x8000.size a
  hwx1_1 : ∀ i : grid1.Coords, EltTy.bits .f32 = 32 ∨ (Rect.block (s := S3x8000) S3x8000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S32000x1.size a
  hwx1_2 : ∀ i : grid1.Coords, EltTy.bits .f32 = 32 ∨ (Rect.block (s := S32000x1) S256x1.size (cc1_transform_2 i) (hinb1_2 i)).WholeWords (EltTy.packing .f32)

variable [Facts₀]

def gather_S2500x3_S4000x3x1_S4000x3x3_2_0_n_n_0_2_13 : GatherDims S2500x3 S4000x3x1 S4000x3x3 where
  offsetDims := [2]
  collapsedSliceDims := [0]
  operandBatchingDims := []
  startIndicesBatchingDims := []
  startIndexMap := [0]
  indexVectorDim := 2
  sliceSizes := ![1, 3]
  wf := gather_S2500x3_S4000x3x1_S4000x3x3_2_0_n_n_0_2_13_wf
def gather_S8000x3_S16000x3x1_S16000x3x3_2_0_n_n_0_2_13 : GatherDims S8000x3 S16000x3x1 S16000x3x3 where
  offsetDims := [2]
  collapsedSliceDims := [0]
  operandBatchingDims := []
  startIndicesBatchingDims := []
  startIndexMap := [0]
  indexVectorDim := 2
  sliceSizes := ![1, 3]
  wf := gather_S8000x3_S16000x3x1_S16000x3x3_2_0_n_n_0_2_13_wf

abbrev win0_0 : Pipeline.Window sig grid0 :=
  Pipeline.Window.ofSpec (Memref.whole main_v9) S160x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S3x16000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S160x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v64) S256x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S3x8000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S256x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8000x3 : Shape := ⟨2, ![8000, 3]⟩
abbrev S16000x3 : Shape := ⟨2, ![16000, 3]⟩
abbrev S2500x3 : Shape := ⟨2, ![2500, 3]⟩
abbrev S4000x3 : Shape := ⟨2, ![4000, 3]⟩
abbrev S4000 : Shape := ⟨1, ![4000]⟩
abbrev S4000x8x1 : Shape := ⟨3, ![4000, 8, 1]⟩
abbrev S_ : Shape := ⟨0, ![]⟩
abbrev S4000x3x1 : Shape := ⟨3, ![4000, 3, 1]⟩
abbrev S4000x3x3 : Shape := ⟨3, ![4000, 3, 3]⟩
abbrev S16000x3x1 : Shape := ⟨3, ![16000, 3, 1]⟩
abbrev S16000x3x3 : Shape := ⟨3, ![16000, 3, 3]⟩
abbrev S16000 : Shape := ⟨1, ![16000]⟩
abbrev S4000x1 : Shape := ⟨2, ![4000, 1]⟩
abbrev S1x16000 : Shape := ⟨2, ![1, 16000]⟩
abbrev S4000x16000 : Shape := ⟨2, ![4000, 16000]⟩
abbrev S3x16000 : Shape := ⟨2, ![3, 16000]⟩
abbrev S4000x1x3 : Shape := ⟨3, ![4000, 1, 3]⟩
abbrev S4000x8x3 : Shape := ⟨3, ![4000, 8, 3]⟩
abbrev S32000x3 : Shape := ⟨2, ![32000, 3]⟩
abbrev S32000 : Shape := ⟨1, ![32000]⟩
abbrev S8000 : Shape := ⟨1, ![8000]⟩
abbrev S32000x1 : Shape := ⟨2, ![32000, 1]⟩
abbrev S1x8000 : Shape := ⟨2, ![1, 8000]⟩
abbrev S32000x8000 : Shape := ⟨2, ![32000, 8000]⟩
abbrev S3x8000 : Shape := ⟨2, ![3, 8000]⟩
abbrev S4000x8 : Shape := ⟨2, ![4000, 8]⟩

abbrev nBuf : Space → Nat
  | .hbm => 138
  | .vmem => 0
  | .smem => 0
  | _ => 0

abbrev hbmTy0_0 (i : Nat) : BufTy := match i % 128 with
  | 0 => ⟨S8000x3, .f32⟩
  | 1 => ⟨S16000x3, .i32⟩
  | 2 => ⟨S2500x3, .f32⟩
  | 3 => ⟨S4000x3, .i32⟩
  | 4 => ⟨S4000, .f32⟩
  | 5 => ⟨S4000x8x1, .f32⟩
  | 6 => ⟨S4000x8x1, .f32⟩
  | 7 => ⟨S_, .i32⟩
  | 8 => ⟨S4000x3, .i32⟩
  | 9 => ⟨S4000x3, .i1⟩
  | 10 => ⟨S_, .i32⟩
  | 11 => ⟨S4000x3, .i32⟩
  | 12 => ⟨S4000x3, .i32⟩
  | 13 => ⟨S4000x3, .i32⟩
  | 14 => ⟨S4000x3x1, .i32⟩
  | 15 => ⟨S4000x3x3, .f32⟩
  | 16 => ⟨S_, .f32⟩
  | 17 => ⟨S4000x3, .f32⟩
  | 18 => ⟨S_, .f32⟩
  | 19 => ⟨S4000x3, .f32⟩
  | 20 => ⟨S4000x3, .f32⟩
  | 21 => ⟨S_, .i32⟩
  | 22 => ⟨S16000x3, .i32⟩
  | 23 => ⟨S16000x3, .i1⟩
  | 24 => ⟨S_, .i32⟩
  | 25 => ⟨S16000x3, .i32⟩
  | 26 => ⟨S16000x3, .i32⟩
  | 27 => ⟨S16000x3, .i32⟩
  | 28 => ⟨S16000x3x1, .i32⟩
  | 29 => ⟨S16000x3x3, .f32⟩
  | 30 => ⟨S_, .f32⟩
  | 31 => ⟨S16000x3, .f32⟩
  | 32 => ⟨S_, .f32⟩
  | 33 => ⟨S16000x3, .f32⟩
  | 34 => ⟨S16000x3, .f32⟩
  | 35 => ⟨S4000x3, .f32⟩
  | 36 => ⟨S_, .f32⟩
  | 37 => ⟨S4000, .f32⟩
  | 38 => ⟨S16000x3, .f32⟩
  | 39 => ⟨S_, .f32⟩
  | 40 => ⟨S16000, .f32⟩
  | 41 => ⟨S4000x1, .f32⟩
  | 42 => ⟨S1x16000, .f32⟩
  | 43 => ⟨S4000x16000, .f32⟩
  | 44 => ⟨S4000x16000, .f32⟩
  | 45 => ⟨S4000x16000, .f32⟩
  | 46 => ⟨S3x16000, .f32⟩
  | 47 => ⟨S4000x16000, .f32⟩
  | 48 => ⟨S_, .f32⟩
  | 49 => ⟨S4000x16000, .f32⟩
  | 50 => ⟨S4000x16000, .f32⟩
  | 51 => ⟨S4000x16000, .f32⟩
  | 52 => ⟨S_, .f32⟩
  | 53 => ⟨S4000, .f32⟩
  | 54 => ⟨S4000, .f32⟩
  | 55 => ⟨S_, .f32⟩
  | 56 => ⟨S_, .f32⟩
  | 57 => ⟨S_, .f32⟩
  | 58 => ⟨S4000, .f32⟩
  | 59 => ⟨S4000, .f32⟩
  | 60 => ⟨S_, .f32⟩
  | 61 => ⟨S_, .f32⟩
  | 62 => ⟨S_, .f32⟩
  | 63 => ⟨S_, .f32⟩
  | 64 => ⟨S_, .f32⟩
  | 65 => ⟨S_, .i32⟩
  | 66 => ⟨S4000x3, .i32⟩
  | 67 => ⟨S4000x3, .i1⟩
  | 68 => ⟨S_, .i32⟩
  | 69 => ⟨S4000x3, .i32⟩
  | 70 => ⟨S4000x3, .i32⟩
  | 71 => ⟨S4000x3, .i32⟩
  | 72 => ⟨S4000x3x1, .i32⟩
  | 73 => ⟨S4000x3x3, .f32⟩
  | 74 => ⟨S4000x8x1, .f32⟩
  | 75 => ⟨S_, .f32⟩
  | 76 => ⟨S4000x8x1, .f32⟩
  | 77 => ⟨S4000x8x1, .f32⟩
  | 78 => ⟨S_, .f32⟩
  | 79 => ⟨S4000x8x1, .f32⟩
  | 80 => ⟨S4000x8x1, .f32⟩
  | 81 => ⟨S4000x8x1, .f32⟩
  | 82 => ⟨S4000x8x1, .f32⟩
  | 83 => ⟨S4000x1x3, .f32⟩
  | 84 => ⟨S4000x3, .f32⟩
  | 85 => ⟨S4000x1x3, .f32⟩
  | 86 => ⟨S4000x8x3, .f32⟩
  | 87 => ⟨S4000x8x3, .f32⟩
  | 88 => ⟨S4000x8x3, .f32⟩
  | 89 => ⟨S4000x1x3, .f32⟩
  | 90 => ⟨S4000x3, .f32⟩
  | 91 => ⟨S4000x1x3, .f32⟩
  | 92 => ⟨S4000x8x3, .f32⟩
  | 93 => ⟨S4000x8x3, .f32⟩
  | 94 => ⟨S4000x8x3, .f32⟩
  | 95 => ⟨S4000x8x3, .f32⟩
  | 96 => ⟨S4000x1x3, .f32⟩
  | 97 => ⟨S4000x3, .f32⟩
  | 98 => ⟨S4000x1x3, .f32⟩
  | 99 => ⟨S4000x8x3, .f32⟩
  | 100 => ⟨S4000x8x3, .f32⟩
  | 101 => ⟨S4000x8x3, .f32⟩
  | 102 => ⟨S4000x8x3, .f32⟩
  | 103 => ⟨S32000x3, .f32⟩
  | 104 => ⟨S32000x3, .f32⟩
  | 105 => ⟨S_, .f32⟩
  | 106 => ⟨S32000, .f32⟩
  | 107 => ⟨S8000x3, .f32⟩
  | 108 => ⟨S_, .f32⟩
  | 109 => ⟨S8000, .f32⟩
  | 110 => ⟨S32000x1, .f32⟩
  | 111 => ⟨S1x8000, .f32⟩
  | 112 => ⟨S32000x8000, .f32⟩
  | 113 => ⟨S32000x8000, .f32⟩
  | 114 => ⟨S32000x8000, .f32⟩
  | 115 => ⟨S3x8000, .f32⟩
  | 116 => ⟨S32000x8000, .f32⟩
  | 117 => ⟨S_, .f32⟩
  | 118 => ⟨S32000x8000, .f32⟩
  | 119 => ⟨S32000x8000, .f32⟩
  | 120 => ⟨S32000x8000, .f32⟩
  | 121 => ⟨S_, .f32⟩
  | 122 => ⟨S32000, .f32⟩
  | 123 => ⟨S_, .f32⟩
  | 124 => ⟨S_, .f32⟩
  | 125 => ⟨S_, .f32⟩
  | 126 => ⟨S_, .f32⟩
  | 127 => ⟨S32000, .f32⟩
  | _ => ⟨S8000x3, .f32⟩

abbrev hbmTy0_1 (i : Nat) : BufTy := match i % 128 with
  | 0 => ⟨S32000, .f32⟩
  | 1 => ⟨S_, .f32⟩
  | 2 => ⟨S32000, .f32⟩
  | 3 => ⟨S32000, .f32⟩
  | 4 => ⟨S4000x8, .f32⟩
  | 5 => ⟨S32000, .f32⟩
  | 6 => ⟨S32000, .f32⟩
  | 7 => ⟨S_, .f32⟩
  | 8 => ⟨S_, .f32⟩
  | 9 => ⟨S_, .f32⟩
  | _ => ⟨S8000x3, .f32⟩

abbrev hbmTy (i : Nat) : BufTy := match i / 128 with
  | 0 => hbmTy0_0 i
  | 1 => hbmTy0_1 i
  | _ => ⟨S8000x3, .f32⟩

abbrev bufTy : (tb : Table) → Fin (tcTables nBuf tb) → BufTy
  | .hbm, ⟨i, _⟩ => hbmTy i
  | _, _ => ⟨S8000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_cst_12 : Ref sig .tc := ⟨.hbm, 60, rfl⟩
abbrev main_v39 : Ref sig .tc := ⟨.hbm, 61, rfl⟩
abbrev main_cst_13 : Ref sig .tc := ⟨.hbm, 62, rfl⟩
abbrev main_v40 : Ref sig .tc := ⟨.hbm, 63, rfl⟩
abbrev main_v41 : Ref sig .tc := ⟨.hbm, 64, rfl⟩
abbrev main_c_14 : Ref sig .tc := ⟨.hbm, 65, rfl⟩
abbrev main_v42 : Ref sig .tc := ⟨.hbm, 66, rfl⟩
abbrev main_v43 : Ref sig .tc := ⟨.hbm, 67, rfl⟩
abbrev main_c_15 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_16 : Ref sig .tc := ⟨.hbm, 75, rfl⟩
abbrev main_v50 : Ref sig .tc := ⟨.hbm, 76, rfl⟩
abbrev main_v51 : Ref sig .tc := ⟨.hbm, 77, rfl⟩
abbrev main_cst_17 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_18 : Ref sig .tc := ⟨.hbm, 105, rfl⟩
abbrev main_v78 : Ref sig .tc := ⟨.hbm, 106, rfl⟩
abbrev main_v79 : Ref sig .tc := ⟨.hbm, 107, rfl⟩
abbrev main_cst_19 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_20 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_21 : Ref sig .tc := ⟨.hbm, 121, rfl⟩
abbrev main_v91 : Ref sig .tc := ⟨.hbm, 122, rfl⟩
abbrev main_cst_22 : Ref sig .tc := ⟨.hbm, 123, rfl⟩
abbrev main_v92 : Ref sig .tc := ⟨.hbm, 124, rfl⟩
abbrev main_cst_23 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_24 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_25 : Ref sig .tc := ⟨.hbm, 135, rfl⟩
abbrev main_v101 : Ref sig .tc := ⟨.hbm, 136, rfl⟩
abbrev main_v102 : Ref sig .tc := ⟨.hbm, 137, rfl⟩

abbrev nD : Nat := 1
abbrev τ : Topo := Topo.v7x

variable {F : FTy → Type} [FloatOps F]

class Facts₀ : Prop where
  bcast_S_S4000x3 : S_.BroadcastsInDim S4000x3 (![] : Fin 0 → Fin S4000x3.rank)
  bcast_S4000x3_S4000x3x1_0_1 : S4000x3.BroadcastsInDim S4000x3x1 (![0, 1] : Fin 2 → Fin S4000x3x1.rank)
  reducesTo_S4000x3x3_S4000x3_d1 : S4000x3x3.ReducesTo [1] S4000x3
  h_S_ : 0 < S_.numel
  bcast_S_S16000x3 : S_.BroadcastsInDim S16000x3 (![] : Fin 0 → Fin S16000x3.rank)
  bcast_S16000x3_S16000x3x1_0_1 : S16000x3.BroadcastsInDim S16000x3x1 (![0, 1] : Fin 2 → Fin S16000x3x1.rank)
  reducesTo_S16000x3x3_S16000x3_d1 : S16000x3x3.ReducesTo [1] S16000x3
  reducesTo_S4000x3_S4000_d1 : S4000x3.ReducesTo [1] S4000
  reducesTo_S16000x3_S16000_d1 : S16000x3.ReducesTo [1] S16000
  bcast_S4000_S4000x1_0 : S4000.BroadcastsInDim S4000x1 (![0] : Fin 1 → Fin S4000x1.rank)
  bcast_S16000_S1x16000_1 : S16000.BroadcastsInDim S1x16000 (![1] : Fin 1 → Fin S1x16000.rank)
  bcast_S4000x1_S4000x16000_0_1 : S4000x1.BroadcastsInDim S4000x16000 (![0, 1] : Fin 2 → Fin S4000x16000.rank)
  bcast_S1x16000_S4000x16000_0_1 : S1x16000.BroadcastsInDim S4000x16000 (![0, 1] : Fin 2 → Fin S4000x16000.rank)
  transposes_S16000x3_S3x16000_1_0 : S16000x3.Transposes [1, 0] S3x16000
  bcast_S_S4000x16000 : S_.BroadcastsInDim S4000x16000 (![] : Fin 0 → Fin S4000x16000.rank)
  reducesTo_S4000x16000_S4000_d1 : S4000x16000.ReducesTo [1] S4000
  reducesTo_S4000_S_d0 : S4000.ReducesTo [0] S_
  bcast_S_S4000 : S_.BroadcastsInDim S4000 (![] : Fin 0 → Fin S4000.rank)
  bcast_S_S4000x8x1 : S_.BroadcastsInDim S4000x8x1 (![] : Fin 0 → Fin S4000x8x1.rank)
  slices_S4000x3x3_S4000x1x3_0_0_0 : S4000x3x3.Slices ![0, 0, 0] S4000x1x3
  shapeCasts_S4000x1x3_S4000x3 : S4000x1x3.ShapeCasts S4000x3
  bcast_S4000x3_S4000x1x3_0_2 : S4000x3.BroadcastsInDim S4000x1x3 (![0, 2] : Fin 2 → Fin S4000x1x3.rank)
  bcast_S4000x8x1_S4000x8x3_0_1_2 : S4000x8x1.BroadcastsInDim S4000x8x3 (![0, 1, 2] : Fin 3 → Fin S4000x8x3.rank)
  bcast_S4000x1x3_S4000x8x3_0_1_2 : S4000x1x3.BroadcastsInDim S4000x8x3 (![0, 1, 2] : Fin 3 → Fin S4000x8x3.rank)
  slices_S4000x3x3_S4000x1x3_0_1_0 : S4000x3x3.Slices ![0, 1, 0] S4000x1x3
  slices_S4000x3x3_S4000x1x3_0_2_0 : S4000x3x3.Slices ![0, 2, 0] S4000x1x3
  shapeCasts_S4000x8x3_S32000x3 : S4000x8x3.ShapeCasts S32000x3
  reducesTo_S32000x3_S32000_d1 : S32000x3.ReducesTo [1] S32000
  reducesTo_S8000x3_S8000_d1 : S8000x3.ReducesTo [1] S8000
  bcast_S32000_S32000x1_0 : S32000.BroadcastsInDim S32000x1 (![0] : Fin 1 → Fin S32000x1.rank)
  bcast_S8000_S1x8000_1 : S8000.BroadcastsInDim S1x8000 (![1] : Fin 1 → Fin S1x8000.rank)
  bcast_S32000x1_S32000x8000_0_1 : S32000x1.BroadcastsInDim S32000x8000 (![0, 1] : Fin 2 → Fin S32000x8000.rank)
  bcast_S1x8000_S32000x8000_0_1 : S1x8000.BroadcastsInDim S32000x8000 (![0, 1] : Fin 2 → Fin S32000x8000.rank)
  transposes_S8000x3_S3x8000_1_0 : S8000x3.Transposes [1, 0] S3x8000
  bcast_S_S32000x8000 : S_.BroadcastsInDim S32000x8000 (![] : Fin 0 → Fin S32000x8000.rank)
  reducesTo_S32000x8000_S32000_d1 : S32000x8000.ReducesTo [1] S32000
  reducesTo_S32000_S_d0 : S32000.ReducesTo [0] S_
  bcast_S_S32000 : S_.BroadcastsInDim S32000 (![] : Fin 0 → Fin S32000.rank)
  bcast_S4000_S4000x8_0 : S4000.BroadcastsInDim S4000x8 (![0] : Fin 1 → Fin S4000x8.rank)
  shapeCasts_S4000x8_S32000 : S4000x8.ShapeCasts S32000
  gather_S2500x3_S4000x3x1_S4000x3x3_2_0_n_n_0_2_13_wf : GatherDims.WF S2500x3 S4000x3x1 S4000x3x3 [2] [0] [] [0] [] 2 ![1, 3]
  gather_S8000x3_S16000x3x1_S16000x3x3_2_0_n_n_0_2_13_wf : GatherDims.WF S8000x3 S16000x3x1 S16000x3x3 [2] [0] [] [0] [] 2 ![1, 3]
  dot_S4000x3_S3x16000_S4000x16000_1_0_0_1_n_n_wf : DotDims.WF S4000x3 S3x16000 S4000x16000 [1] [0] [0] [1] [] []
  dot_S32000x3_S3x8000_S32000x8000_1_0_0_1_n_n_wf : DotDims.WF S32000x3 S3x8000 S32000x8000 [1] [0] [0] [1] [] []

variable [Facts₀]

def gather_S2500x3_S4000x3x1_S4000x3x3_2_0_n_n_0_2_13 : GatherDims S2500x3 S4000x3x1 S4000x3x3 where
  offsetDims := [2]
  collapsedSliceDims := [0]
  operandBatchingDims := []
  startIndicesBatchingDims := []
  startIndexMap := [0]
  indexVectorDim := 2
  sliceSizes := ![1, 3]
  wf := gather_S2500x3_S4000x3x1_S4000x3x3_2_0_n_n_0_2_13_wf
def gather_S8000x3_S16000x3x1_S16000x3x3_2_0_n_n_0_2_13 : GatherDims S8000x3 S16000x3x1 S16000x3x3 where
  offsetDims := [2]
  collapsedSliceDims := [0]
  operandBatchingDims := []
  startIndicesBatchingDims := []
  startIndexMap := [0]
  indexVectorDim := 2
  sliceSizes := ![1, 3]
  wf := gather_S8000x3_S16000x3x1_S16000x3x3_2_0_n_n_0_2_13_wf
def dot_S4000x3_S3x16000_S4000x16000_1_0_0_1_n_n : DotDims S4000x3 S3x16000 S4000x16000 where
  lhsContracting := [1]
  rhsContracting := [0]
  lhsNonContracting := [0]
  rhsNonContracting := [1]
  lhsBatch := []
  rhsBatch := []
  wf := dot_S4000x3_S3x16000_S4000x16000_1_0_0_1_n_n_wf
def dot_S32000x3_S3x8000_S32000x8000_1_0_0_1_n_n : DotDims S32000x3 S3x8000 S32000x8000 where
  lhsContracting := [1]
  rhsContracting := [0]
  lhsNonContracting := [0]
  rhsNonContracting := [1]
  lhsBatch := []
  rhsBatch := []
  wf := dot_S32000x3_S3x8000_S32000x8000_1_0_0_1_n_n_wf

class Facts : Prop extends Facts₀ where

variable [Facts]
-- ==== Proof.Algebra.lean ====
/-
  The one algebraic law of this certificate, and the small facts about real-valued extended reals it rests on.

  A point of space is three coordinates. Its squared distance to another point is written in two ways: as the sum of
  the three squared coordinate differences, and as |x|² + |y|² − 2·⟨x, y⟩ with each of the three sums started from
  zero. On real numbers the two agree (expand the squares). On the extended reals they need not (∞ − ∞), which is why
  every use below first shows the coordinates are real.
-/
import Idealize.ShloMosaic.PureOps.Ideal
import Idealize.ShloMosaic.PureOps.Ideal.Laws

open scoped BigOperators

noncomputable section

namespace Cert.Algebra

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih
/-- The square root of a non-negative real is a real. -/
theorem IsReal.sqrt {x : EReal} (hx : ∃ r : ℝ, 0 ≤ r ∧ x = (r : EReal)) : IsReal (Ideal.sqrt x) := by
  obtain ⟨r, hr, rfl⟩ := hx
  refine ⟨Real.sqrt r, ?_⟩
  rw [Ideal.sqrt_coe, if_neg (not_lt.mpr hr)]
/-- A real divided by a non-zero real is a real. -/
theorem IsReal.div_coe {x : EReal} (hx : IsReal x) {y : ℝ} (hy : y ≠ 0) : IsReal (Ideal.div x (y : EReal)) := by
  rw [Ideal.div_coe hy]; exact hx.mul ⟨_, rfl⟩

/-- The float words this certificate's programs spell, as the reals they denote. -/
theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]

/-- Squared distance as the sum of the squared coordinate differences, the coordinates taken in order. -/
def sqDiff (x y : Fin 3 → EReal) : EReal :=
  (x 0 - y 0) * (x 0 - y 0) + (x 1 - y 1) * (x 1 - y 1) + (x 2 - y 2) * (x 2 - y 2)

/-- Squared distance as |x|² + |y|² − two·⟨x, y⟩, the three sums started from `z`. -/
def sqExpand (z two : EReal) (x y : Fin 3 → EReal) : EReal :=
  ((z + ∑ k : Fin 3, x k * x k) + (z + ∑ k : Fin 3, y k * y k)) - two * ∑ k : Fin 3, x k * y k

/-- On real coordinates the two spellings of the squared distance agree. -/
theorem sqDiff_eq_sqExpand (x y : Fin 3 → EReal) (hx : ∀ k, IsReal (x k)) (hy : ∀ k, IsReal (y k)) :
    sqDiff x y = sqExpand 0 ((2 : ℝ) : EReal) x y := by
  obtain ⟨a0, h0⟩ := hx 0; obtain ⟨a1, h1⟩ := hx 1; obtain ⟨a2, h2⟩ := hx 2
  obtain ⟨b0, g0⟩ := hy 0; obtain ⟨b1, g1⟩ := hy 1; obtain ⟨b2, g2⟩ := hy 2
  unfold sqDiff sqExpand
  rw [Fin.sum_univ_three, Fin.sum_univ_three, Fin.sum_univ_three, h0, h1, h2, g0, g1, g2]
  have z : (0 : EReal) = ((0 : ℝ) : EReal) := rfl
  rw [z]
  simp only [← EReal.coe_sub, ← EReal.coe_mul, ← EReal.coe_add]
  exact congrArg _ (by ring)

end Cert.Algebra

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«115603_j60292750901759_2_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.RowMin.lean ====
/-
  The body of both kernels, read at an index — general in the two extents.

  The body holds a block of `a` query points (an `[a, 3]` array, one row per point) and all `b` target points
  transposed (a `[3, b]` array, one column per point). It takes the three coordinate columns of the block and the
  three coordinate rows of the targets, forms for every pair (row r, column q) the sum of the three squared coordinate
  differences, and keeps for each row the minimum over the columns, from +∞, as an `[a, 1]` column. So its entry at
  row `r` is the least squared distance from query point `r` to a target point.
-/
import Idealize.ShloMosaic.Lib.ValueLayout
import Idealize.ShloMosaic.PureOps.Reduce
import Idealize.ShloMosaic.PureOps.Ideal.Laws
import proofs.«115603_j60292750901759_2_alg».proof.Proof.Algebra
import proofs.«115603_j60292750901759_2_alg».proof.Proof.LibRowSums

noncomputable section

namespace Cert.RowMin

open Idealize.ShloMosaic Idealize.ShloMosaic.ValueIdx Cert.Algebra

/-- The minimum, from +∞, over the `b` target points of the squared distance (sum of squared coordinate differences)
    from the point `x` to target `q` of `y`. -/
def rowMin {b : ℕ} (x : Fin 3 → EReal) (y : Fin b → Fin 3 → EReal) : EReal :=
  (Finset.univ : Finset (Fin b)).fold min (Ideal.ofBits .f32 0x7F800000#32) (fun q => sqDiff x (y q))

/-- A lane minimum along axis 1 of an `[a, b]` matrix, from the accumulator's value, kept as an `[a, 1]` column,
    reads at `(r, u)` the minimum over `q < b` of the entries `(r, q)`. -/
theorem laneMin_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.minimumf.neutral .f32 hφ)
    (hc : (⟨1, ![a]⟩ : Shape).ShapeCasts ⟨2, ![a, 1]⟩) (r : Fin a) (u : Fin 1) :
    shapeCast ⟨2, ![a, 1]⟩ (multiReduction .minimumf [1] ⟨1, ![a]⟩ src acc h hφ hacc) hc (ix2 r u)
      = (Finset.univ : Finset (Fin b)).fold min (Ideal.ofBits .f32 acc) (fun q => src (ix2 r q)) := by
  rw [Cert.LibColumns.shapeCast_a_a1_apply]
  refine (multiReduction_minimumf_eq_fold src acc h hφ hacc (ix1 r)).trans ?_
  refine (h.fold_filter_drop_single FloatOps.minimumf _ src (ix1 r)).trans ?_
  have hf : (src ∘ h.lift (ix1 r)) = fun q : Fin b => src (ix2 r q) :=
    funext fun q => congrArg src (Cert.LibRowSums.lift_row h r q)
  exact congrArg (fun f => Finset.fold min (Ideal.ofBits .f32 acc) f (Finset.univ : Finset (Fin b))) hf

/-- THE BODY at `(r, u)`: the least squared distance from row `r` of the block to a column of the targets. -/
theorem body_apply {a b : ℕ} (x0 : FVec Ideal ⟨2, ![a, 3]⟩ .f32) (x1 : FVec Ideal ⟨2, ![3, b]⟩ .f32)
    (hc0 : (⟨2, ![a, 3]⟩ : Shape).ShapeCasts ⟨2, ![a, 3]⟩) (hc1 : (⟨2, ![3, b]⟩ : Shape).ShapeCasts ⟨2, ![3, b]⟩)
    (hs0 : (⟨2, ![a, 3]⟩ : Shape).Slices ![0, 0] ⟨2, ![a, 1]⟩) (hs1 : (⟨2, ![a, 3]⟩ : Shape).Slices ![0, 1] ⟨2, ![a, 1]⟩)
    (hs2 : (⟨2, ![a, 3]⟩ : Shape).Slices ![0, 2] ⟨2, ![a, 1]⟩)
    (ht0 : (⟨2, ![3, b]⟩ : Shape).Slices ![0, 0] ⟨2, ![1, b]⟩) (ht1 : (⟨2, ![3, b]⟩ : Shape).Slices ![1, 0] ⟨2, ![1, b]⟩)
    (ht2 : (⟨2, ![3, b]⟩ : Shape).Slices ![2, 0] ⟨2, ![1, b]⟩)
    (hb0 : (⟨2, ![a, 1]⟩ : Shape).Broadcasts ⟨2, ![a, b]⟩) (hb1 : (⟨2, ![1, b]⟩ : Shape).Broadcasts ⟨2, ![a, b]⟩)
    (h : (⟨2, ![a, b]⟩ : Shape).Reduces [1] ⟨1, ![a]⟩) (hφ : FKind.Formats .f32)
    (hacc : (0x7F800000#32 : BitVec FTy.f32.bits) = FKind.minimumf.neutral .f32 hφ)
    (hc : (⟨1, ![a]⟩ : Shape).ShapeCasts ⟨2, ![a, 1]⟩) (r : Fin a) (u : Fin 1) :
    shapeCast ⟨2, ![a, 1]⟩ (multiReduction .minimumf [1] ⟨1, ![a]⟩
      (addf (addf
        (mulf (subf (broadcastTo ⟨2, ![a, b]⟩ (extractStridedSlice ⟨2, ![a, 1]⟩ ![0, 0] (shapeCast ⟨2, ![a, 3]⟩ x0 hc0) hs0) hb0)
                    (broadcastTo ⟨2, ![a, b]⟩ (extractStridedSlice ⟨2, ![1, b]⟩ ![0, 0] (shapeCast ⟨2, ![3, b]⟩ x1 hc1) ht0) hb1))
              (subf (broadcastTo ⟨2, ![a, b]⟩ (extractStridedSlice ⟨2, ![a, 1]⟩ ![0, 0] (shapeCast ⟨2, ![a, 3]⟩ x0 hc0) hs0) hb0)
                    (broadcastTo ⟨2, ![a, b]⟩ (extractStridedSlice ⟨2, ![1, b]⟩ ![0, 0] (shapeCast ⟨2, ![3, b]⟩ x1 hc1) ht0) hb1)))
        (mulf (subf (broadcastTo ⟨2, ![a, b]⟩ (extractStridedSlice ⟨2, ![a, 1]⟩ ![0, 1] (shapeCast ⟨2, ![a, 3]⟩ x0 hc0) hs1) hb0)
                    (broadcastTo ⟨2, ![a, b]⟩ (extractStridedSlice ⟨2, ![1, b]⟩ ![1, 0] (shapeCast ⟨2, ![3, b]⟩ x1 hc1) ht1) hb1))
              (subf (broadcastTo ⟨2, ![a, b]⟩ (extractStridedSlice ⟨2, ![a, 1]⟩ ![0, 1] (shapeCast ⟨2, ![a, 3]⟩ x0 hc0) hs1) hb0)
                    (broadcastTo ⟨2, ![a, b]⟩ (extractStridedSlice ⟨2, ![1, b]⟩ ![1, 0] (shapeCast ⟨2, ![3, b]⟩ x1 hc1) ht1) hb1))))
        (mulf (subf (broadcastTo ⟨2, ![a, b]⟩ (extractStridedSlice ⟨2, ![a, 1]⟩ ![0, 2] (shapeCast ⟨2, ![a, 3]⟩ x0 hc0) hs2) hb0)
                    (broadcastTo ⟨2, ![a, b]⟩ (extractStridedSlice ⟨2, ![1, b]⟩ ![2, 0] (shapeCast ⟨2, ![3, b]⟩ x1 hc1) ht2) hb1))
              (subf (broadcastTo ⟨2, ![a, b]⟩ (extractStridedSlice ⟨2, ![a, 1]⟩ ![0, 2] (shapeCast ⟨2, ![a, 3]⟩ x0 hc0) hs2) hb0)
                    (broadcastTo ⟨2, ![a, b]⟩ (extractStridedSlice ⟨2, ![1, b]⟩ ![2, 0] (shapeCast ⟨2, ![3, b]⟩ x1 hc1) ht2) hb1))))
      0x7F800000#32 h hφ hacc) hc (ix2 r u)
      = rowMin (fun k => x0 (ix2 r k)) (fun q k => x1 (ix2 k q)) := by
  refine (laneMin_apply _ _ h hφ hacc hc r u).trans ?_
  unfold rowMin
  refine congrArg (fun f => Finset.fold min (Ideal.ofBits .f32 0x7F800000#32) f (Finset.univ : Finset (Fin b))) (funext fun q => ?_)
  simp only [addf, mulf, subf, shapeCast_self]
  rw [Cert.LibColumns.broadcastTo_a1_ab_apply, Cert.LibColumns.broadcastTo_a1_ab_apply, Cert.LibColumns.broadcastTo_a1_ab_apply,
    broadcastTo_1b_ab_apply, broadcastTo_1b_ab_apply, broadcastTo_1b_ab_apply,
    slice2_axis1_eq 0 x0 hs0, slice2_axis1_eq 1 x0 hs1, slice2_axis1_eq 2 x0 hs2,
    slice2_axis0_eq 0 x1 ht0, slice2_axis0_eq 1 x1 ht1, slice2_axis0_eq 2 x1 ht2]
  rfl

end Cert.RowMin

end
-- ==== Proof.Region0.lean ====
/-
  The first region's output column as one function of the two arrays it is entered with.

  The grid has 25 points; point `t` is handed rows 160·t … 160·t + 159 of the query array (4000 points, one per
  row) and the whole transposed target array (16000 points, one per column), and writes back rows 160·t … 160·t + 159
  of the output column. The blocks of the 25 points tile the 4000 rows, so after the run row `i` of the column holds the
  least squared distance from query point `i` to a target point.
-/
import proofs.«115603_j60292750901759_2_alg».proof.Proof.Gen.KernelIdeal.Frame
import proofs.«115603_j60292750901759_2_alg».proof.Proof.RowMin
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `i` of the column: the least squared distance from row `i` of `X` to a column of `YT`. -/
def col (X : S4000x3.Idx → EReal) (YT : S3x16000.Idx → EReal) : S4000x1.Idx → EReal :=
  fun i => Cert.RowMin.rowMin (fun k => X (ix2 (⟨(i 0).val, (i 0).isLt⟩ : Fin 4000) k)) (fun (q : Fin 16000) k => YT (ix2 k q))

/-- The body's stored value at `(r, u)`, from the two loaded blocks. -/
theorem pay_apply (x0 : Vec Ideal S160x3 .f32) (x1 : Vec Ideal S3x16000 .f32) (r : Fin 160) (u : Fin 1) :
    k0_pay1 (F := Ideal) x0 x1 (ix2 r u) = Cert.RowMin.rowMin (fun k => x0 (ix2 r k)) (fun (q : Fin 16000) k => x1 (ix2 k q)) := by
  unfold k0_pay1
  exact Cert.RowMin.body_apply (a := 160) (b := 16000) x0 x1 shapeCasts_S160x3_S160x3 shapeCasts_S3x16000_S3x16000
    slices_S160x3_o0_0_S160x1 slices_S160x3_o0_1_S160x1 slices_S160x3_o0_2_S160x1
    slices_S3x16000_o0_0_S1x16000 slices_S3x16000_o1_0_S1x16000 slices_S3x16000_o2_0_S1x16000
    broadcasts_S160x1_S160x16000 broadcasts_S1x16000_S160x16000 reduces_S160x16000_S160 (.inl rfl) rfl shapeCasts_S160_S160x1 r u

/-- The printed index maps over the grid: the query and output windows move one block per point along the rows, the
    target window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the column. -/
theorem flushed_eq (c : Dev nD) (t : Fin cfg0.N) :
    (dat0 V c).flushed 2 t = ((cfg0.win 2).blk t).view.read (Elt Ideal) (col (V c main_v9) (V c main_v20)) := by
  show (cfg0.win 2).cut (grid0.coords t) ((dat0 V c).after 2 t) = _
  rw [after0_2]
  unfold out0_2
  rw [View.canon_unit_zero hz]
  simp only [View.ld_unit_zero (S := S160x3) hz, View.ld_unit_zero (S := S3x16000) hz]
  obtain ⟨e0, e1, e2, e3, e4, e5⟩ := idx_facts t
  funext j
  obtain ⟨r, u, rfl⟩ : ∃ (r : Fin 160) (u : Fin 1), j = ix2 r u := ⟨j 0, j 1, eq_ix2 j⟩
  show k0_pay1 (F := Ideal) (iblk0 V c 0 t) (iblk0 V c 1 t) (ix2 r u) = col (V c main_v9) (V c main_v20) (((cfg0.win 2).blk t).view.emb (ix2 r u))
  refine (pay_apply (iblk0 V c 0 t) (iblk0 V c 1 t) r u).trans ?_
  unfold col
  have hX : ∀ k : Fin 3, iblk0 V c 0 t (ix2 r k)
      = V c main_v9 (ix2 (⟨((((cfg0.win 2).blk t).view.emb (ix2 r u)) 0).val, ((((cfg0.win 2).blk t).view.emb (ix2 r u)) 0).isLt⟩ : Fin 4000) k) := by
    intro k
    show V c main_v9 (((cfg0.win 0).blk t).view.emb (ix2 r k)) = _
    refine congrArg (V c main_v9) (funext fun a => Fin.ext ?_)
    match a with
    | ⟨0, _⟩ => show win0_0.index t (0 : Fin 2) * 160 + 1 * r.val = win0_2.index t (0 : Fin 2) * 160 + 1 * r.val; omega
    | ⟨1, _⟩ => show win0_0.index t (1 : Fin 2) * 3 + 1 * k.val = k.val; omega
  have hY : ∀ (q : Fin 16000) (k : Fin 3), iblk0 V c 1 t (ix2 k q) = V c main_v20 (ix2 k q) := by
    intro q k
    show V c main_v20 (((cfg0.win 1).blk t).view.emb (ix2 k q)) = _
    refine congrArg (V c main_v20) (funext fun a => Fin.ext ?_)
    match a with
    | ⟨0, _⟩ => show win0_1.index t (0 : Fin 2) * 3 + 1 * k.val = k.val; omega
    | ⟨1, _⟩ => show win0_1.index t (1 : Fin 2) * 16000 + 1 * q.val = q.val; omega
  simp only [hX, hY]

/-- An index of the column is in point `t`'s block iff each coordinate is in the block's range on its axis. -/
theorem mem_blk (t : Fin cfg0.N) (i : S4000x1.Idx) :
    i ∈ ((cfg0.win 2).blk t).view.set ↔ ∀ a : Fin 2, win0_2.index t a * S160x1.size a ≤ (i a).val ∧ (i a).val < win0_2.index t a * S160x1.size a + S160x1.size a := by
  show i ∈ ((View.whole main_v21).slice (win0_2.rect t)).set ↔ _
  rw [View.set_slice_whole, Rect.mem_set_unit]
  exact Iff.rfl

/-- Every row of the column lies in the block of the point that owns it (row `i`: point `i / 160`). -/
theorem cover (i : S4000x1.Idx) : ∃ t : Fin cfg0.N, (cfg0.win 2).flush t = true ∧ i ∈ ((cfg0.win 2).blk t).view.set := by
  have hi0 : (i 0).val < 4000 := (i 0).isLt
  have hi1 : (i 1).val < 1 := (i 1).isLt
  have hN : cfg0.N = 25 := N_0
  let t : Fin cfg0.N := ⟨(i 0).val / 160, by rw [hN]; omega⟩
  obtain ⟨e0, e1, e2, e3, e4, e5⟩ := idx_facts t
  have ht : t.val = (i 0).val / 160 := rfl
  refine ⟨t, flush0_2 t, ?_⟩
  rw [mem_blk]
  intro a
  match a with
  | ⟨0, _⟩ => show win0_2.index t (0 : Fin 2) * 160 ≤ (i 0).val ∧ (i 0).val < win0_2.index t (0 : Fin 2) * 160 + 160; omega
  | ⟨1, _⟩ => show win0_2.index t (1 : Fin 2) * 1 ≤ (i 1).val ∧ (i 1).val < win0_2.index t (1 : Fin 2) * 1 + 1; omega

/-- THE COLUMN after the run. -/
theorem final (c : Dev nD) : (dat0 V c).arrAt 2 cfg0.N = col (V c main_v9) (V c main_v20) :=
  (dat0 V c).arrAt_eq_of_cover 2 (col (V c main_v9) (V c main_v20)) (fun t _ => flushed_eq V c t) cover

end Cert.KernelIdeal.Region0

end
-- ==== Proof.Region1.lean ====
/-
  The second region's output column as one function of the two arrays it is entered with.

  The grid has 125 points; point `t` is handed rows 256·t … 256·t + 255 of the query array (32000 points, one per
  row) and the whole transposed target array (8000 points, one per column), and writes back rows 256·t … 256·t + 255
  of the output column. The blocks of the 125 points tile the 32000 rows, so after the run row `i` of the column holds the
  least squared distance from query point `i` to a target point.
-/
import proofs.«115603_j60292750901759_2_alg».proof.Proof.Gen.KernelIdeal.Frame
import proofs.«115603_j60292750901759_2_alg».proof.Proof.RowMin
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `i` of the column: the least squared distance from row `i` of `X` to a column of `YT`. -/
def col (X : S32000x3.Idx → EReal) (YT : S3x8000.Idx → EReal) : S32000x1.Idx → EReal :=
  fun i => Cert.RowMin.rowMin (fun k => X (ix2 (⟨(i 0).val, (i 0).isLt⟩ : Fin 32000) k)) (fun (q : Fin 8000) k => YT (ix2 k q))

/-- The body's stored value at `(r, u)`, from the two loaded blocks. -/
theorem pay_apply (x0 : Vec Ideal S256x3 .f32) (x1 : Vec Ideal S3x8000 .f32) (r : Fin 256) (u : Fin 1) :
    k1_pay1 (F := Ideal) x0 x1 (ix2 r u) = Cert.RowMin.rowMin (fun k => x0 (ix2 r k)) (fun (q : Fin 8000) k => x1 (ix2 k q)) := by
  unfold k1_pay1
  exact Cert.RowMin.body_apply (a := 256) (b := 8000) x0 x1 shapeCasts_S256x3_S256x3 shapeCasts_S3x8000_S3x8000
    slices_S256x3_o0_0_S256x1 slices_S256x3_o0_1_S256x1 slices_S256x3_o0_2_S256x1
    slices_S3x8000_o0_0_S1x8000 slices_S3x8000_o1_0_S1x8000 slices_S3x8000_o2_0_S1x8000
    broadcasts_S256x1_S256x8000 broadcasts_S1x8000_S256x8000 reduces_S256x8000_S256 (.inl rfl) rfl shapeCasts_S256_S256x1 r u

/-- The printed index maps over the grid: the query and output windows move one block per point along the rows, the
    target window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the column. -/
theorem flushed_eq (c : Dev nD) (t : Fin cfg1.N) :
    (dat1 V c).flushed 2 t = ((cfg1.win 2).blk t).view.read (Elt Ideal) (col (V c main_v64) (V c main_v65)) := by
  show (cfg1.win 2).cut (grid1.coords t) ((dat1 V c).after 2 t) = _
  rw [after1_2]
  unfold out1_2
  rw [View.canon_unit_zero hz]
  simp only [View.ld_unit_zero (S := S256x3) hz, View.ld_unit_zero (S := S3x8000) hz]
  obtain ⟨e0, e1, e2, e3, e4, e5⟩ := idx_facts t
  funext j
  obtain ⟨r, u, rfl⟩ : ∃ (r : Fin 256) (u : Fin 1), j = ix2 r u := ⟨j 0, j 1, eq_ix2 j⟩
  show k1_pay1 (F := Ideal) (iblk1 V c 0 t) (iblk1 V c 1 t) (ix2 r u) = col (V c main_v64) (V c main_v65) (((cfg1.win 2).blk t).view.emb (ix2 r u))
  refine (pay_apply (iblk1 V c 0 t) (iblk1 V c 1 t) r u).trans ?_
  unfold col
  have hX : ∀ k : Fin 3, iblk1 V c 0 t (ix2 r k)
      = V c main_v64 (ix2 (⟨((((cfg1.win 2).blk t).view.emb (ix2 r u)) 0).val, ((((cfg1.win 2).blk t).view.emb (ix2 r u)) 0).isLt⟩ : Fin 32000) k) := by
    intro k
    show V c main_v64 (((cfg1.win 0).blk t).view.emb (ix2 r k)) = _
    refine congrArg (V c main_v64) (funext fun a => Fin.ext ?_)
    match a with
    | ⟨0, _⟩ => show win1_0.index t (0 : Fin 2) * 256 + 1 * r.val = win1_2.index t (0 : Fin 2) * 256 + 1 * r.val; omega
    | ⟨1, _⟩ => show win1_0.index t (1 : Fin 2) * 3 + 1 * k.val = k.val; omega
  have hY : ∀ (q : Fin 8000) (k : Fin 3), iblk1 V c 1 t (ix2 k q) = V c main_v65 (ix2 k q) := by
    intro q k
    show V c main_v65 (((cfg1.win 1).blk t).view.emb (ix2 k q)) = _
    refine congrArg (V c main_v65) (funext fun a => Fin.ext ?_)
    match a with
    | ⟨0, _⟩ => show win1_1.index t (0 : Fin 2) * 3 + 1 * k.val = k.val; omega
    | ⟨1, _⟩ => show win1_1.index t (1 : Fin 2) * 8000 + 1 * q.val = q.val; omega
  simp only [hX, hY]

/-- An index of the column is in point `t`'s block iff each coordinate is in the block's range on its axis. -/
theorem mem_blk (t : Fin cfg1.N) (i : S32000x1.Idx) :
    i ∈ ((cfg1.win 2).blk t).view.set ↔ ∀ a : Fin 2, win1_2.index t a * S256x1.size a ≤ (i a).val ∧ (i a).val < win1_2.index t a * S256x1.size a + S256x1.size a := by
  show i ∈ ((View.whole main_v66).slice (win1_2.rect t)).set ↔ _
  rw [View.set_slice_whole, Rect.mem_set_unit]
  exact Iff.rfl

/-- Every row of the column lies in the block of the point that owns it (row `i`: point `i / 256`). -/
theorem cover (i : S32000x1.Idx) : ∃ t : Fin cfg1.N, (cfg1.win 2).flush t = true ∧ i ∈ ((cfg1.win 2).blk t).view.set := by
  have hi0 : (i 0).val < 32000 := (i 0).isLt
  have hi1 : (i 1).val < 1 := (i 1).isLt
  have hN : cfg1.N = 125 := N_1
  let t : Fin cfg1.N := ⟨(i 0).val / 256, by rw [hN]; omega⟩
  obtain ⟨e0, e1, e2, e3, e4, e5⟩ := idx_facts t
  have ht : t.val = (i 0).val / 256 := rfl
  refine ⟨t, flush1_2 t, ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 1 ≤ (i 1).val ∧ (i 1).val < win1_2.index t (1 : Fin 2) * 1 + 1; omega

/-- THE COLUMN after the run. -/
theorem final (c : Dev nD) : (dat1 V c).arrAt 2 cfg1.N = col (V c main_v64) (V c main_v65) :=
  (dat1 V c).arrAt_eq_of_cover 2 (col (V c main_v64) (V c main_v65)) (fun t _ => flushed_eq V c t) cover

end Cert.KernelIdeal.Region1

end
-- ==== Proof.Tail.lean ====
/-
  What both programs do with the two columns of nearest-neighbour squared distances: the same closing arithmetic.

  With `p` the face probabilities, `d` the per-face least squared distances (forward term) and `e` the per-sample
  least squared distances (reverse term), both programs return
    (Σ_f p_f·d_f + 1e-4·Σ_f (1 − p_f)) + Σ_s p_{s/8} · (e_s / (max_s e_s + 1e-8)) · 0.1,
  each sum started from zero. The reference's last operations are exactly this function of its two row minima.
-/
import proofs.«115603_j60292750901759_2_alg».proof.Proof.Gen.ReferenceIdeal.Read

noncomputable section

namespace Cert.Tail

open Cert.ReferenceIdeal Cert.ReferenceIdeal.Gen Cert.ReferenceIdeal.Read Idealize.ShloMosaic

variable {F : FTy → Type} [FloatOps F]

/-- The closing arithmetic as a function of the probabilities `p`, the forward minima `d` and the reverse minima `e`. -/
def closing (p : (⟨S4000, .f32⟩ : BufTy).Contents (Elt F)) (d : (⟨S4000, .f32⟩ : BufTy).Contents (Elt F))
    (e : (⟨S32000, .f32⟩ : BufTy).Contents (Elt F)) : (⟨S_, .f32⟩ : BufTy).Contents (Elt F) :=
  addf
    (addf (Host.reduceAdd (mulf p d) (val_main_cst_10 (F := F)) reducesTo_S4000_S_d0 h_S_) (val_main_v40 (F := F) p))
    (Host.reduceAdd
      (mulf (val_main_v99 (F := F) p)
        (mulf
          (Host.divf e (broadcastInDim S32000 ![] bcast_S_S32000
            (addf (Host.reduce FloatOps.maximumf e (val_main_cst_22 (F := F)) reducesTo_S32000_S_d0 h_S_) (val_main_cst_23 (F := F)))))
          (val_main_v96 (F := F))))
      (val_main_cst_25 (F := F)) reducesTo_S32000_S_d0 h_S_)

/-- The reference's result is the closing arithmetic of its two row minima. -/
theorem ref_eq (x0 : (⟨S8000x3, .f32⟩ : BufTy).Contents (Elt F)) (x1 : (⟨S16000x3, .i32⟩ : BufTy).Contents (Elt F))
    (x2 : (⟨S2500x3, .f32⟩ : BufTy).Contents (Elt F)) (x3 : (⟨S4000x3, .i32⟩ : BufTy).Contents (Elt F))
    (x4 : (⟨S4000, .f32⟩ : BufTy).Contents (Elt F)) (x5 x6 : (⟨S4000x8x1, .f32⟩ : BufTy).Contents (Elt F)) :
    val_main_v102 (F := F) x0 x1 x2 x3 x4 x5 x6
      = closing x4 (val_main_v34 (F := F) x0 x1 x2 x3) (val_main_v91 (F := F) x0 x2 x3 x5 x6) := rfl

end Cert.Tail

end
-- ==== Proof.KernelRun.lean ====
/-
  The idealized kernel program's run with its result named, and the result read back to the two regions' columns.

  @main is five stretches: host operations, the first nearest-neighbour region (forward term), host operations, the
  second region (reverse term), host operations. Every weakly fair execution terminates with each buffer at the fold
  of those stretches over the launch memory; read at the result's buffer that fold is the closing arithmetic of the
  face probabilities and of the two regions' output columns, each column flattened to a vector.
-/
import proofs.«115603_j60292750901759_2_alg».proof.Proof.Gen.KernelIdeal.Frame
import proofs.«115603_j60292750901759_2_alg».proof.Proof.Tail

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the fold of the five
    stretches over the launch memory and the argument arrays as launched. -/
theorem run_named : θ_run defs (onTc (τ := τ) (main (F := F))) ⟨m, fun _ => 0, ρ⟩ (fun r => ∀ c : Dev nD,
      r.2.mem ((c.tc : Thread nD τ).loc main_v78) = W5 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v78 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-! ## The result read back -/

variable (c : Dev nD)

/-- The face probabilities are as launched at the first region's exit: no host operation before it and no region
    writes them. -/
theorem W2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
        simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = m ((c : Thread nD τ).loc main_arg4) := rfl

/-- And at the second region's exit. -/
theorem W4_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
        simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = m ((c : Thread nD τ).loc main_arg4) := W2_arg4 m ρ c

/-- The forward term, computed between the regions from the first region's column, is untouched by the second. -/
theorem W4_v29 : W4 m ρ c (Proc.devRef .tc main_v29)
    = addf (Host.reduceAdd (mulf (m ((c : Thread nD τ).loc main_arg4)) (shapeCast S4000 (W2 m ρ c (Proc.devRef .tc main_v21)) shapeCasts_S4000x1_S4000))
              (constant (F := F) S_ .f32 0x00000000#32) reducesTo_S4000_S_d0 h_S_)
        (mulf (constant (F := F) S_ .f32 0x38D1B717#32)
          (Host.reduceAdd (subf (broadcastInDim S4000 ![] bcast_S_S4000 (constant (F := F) S_ .f32 0x3F800000#32)) (m ((c : Thread nD τ).loc main_arg4)))
            (constant (F := F) S_ .f32 0x00000000#32) reducesTo_S4000_S_d0 h_S_)) := by
  rw [W4_of_ne m ρ c main_v29 (by decide)]
  show StableHlo.after hostOps1 (W2 m ρ c) (Proc.devRef .tc main_v29) = _
  after_results
  rw [W2_arg4]
  rfl

/-- THE RESULT: the closing arithmetic of the face probabilities and the two regions' columns, flattened. -/
theorem v78_eq : W5 m ρ c (Proc.devRef .tc main_v78)
    = Cert.Tail.closing (m ((c : Thread nD τ).loc main_arg4))
        (shapeCast S4000 (W2 m ρ c (Proc.devRef .tc main_v21)) shapeCasts_S4000x1_S4000)
        (shapeCast S32000 (W4 m ρ c (Proc.devRef .tc main_v66)) shapeCasts_S32000x1_S32000) := by
  show StableHlo.after hostOps2 (W4 m ρ c) (Proc.devRef .tc main_v78) = _
  after_results
  rw [W4_v29, W4_arg4]
  rfl

end Cert.KernelIdeal.Named

end
-- ==== Proof.KernelPrefix.lean ====
/-
  The arrays the kernel program's two regions are entered with are the same functions of the arguments as the
  reference's intermediates of the same meaning.

  Before each region the kernel program runs a stretch of host operations. Up to the region's operands these are, one
  for one, the operations the reference runs: the gathered and averaged query points and the transposed averaged
  targets before the first region; the interpolated sample points (reshaped to one row per sample) and the transposed
  original targets before the second. No operation of either stretch and neither region writes an argument, so each
  stretch computes from the launch contents of the arguments.
-/
import proofs.«115603_j60292750901759_2_alg».proof.Proof.Gen.KernelIdeal.Frame
import proofs.«115603_j60292750901759_2_alg».proof.Proof.Gen.ReferenceIdeal.Read

noncomputable section

namespace Cert.KernelIdeal.Prefix

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg) (c : Dev nD)

/-! ## Before the first region -/

/-- The first region's row points: the averaged gathered query points, as the reference computes them. -/
theorem entry0_q :
    (W1 m ρ c (Proc.devRef .tc main_v9) : S4000x3.Idx → EReal)
      = Cert.ReferenceIdeal.Read.val_main_v9 (F := Ideal) (m ((c : Thread nD τ).loc main_arg2)) (m ((c : Thread nD τ).loc main_arg3)) := by
  show StableHlo.after hostOps0 (W0 m ρ c) (Proc.devRef .tc main_v9) = _
  after_results
  rfl

/-- The first region's column points, one per column: the transpose of the averaged gathered targets. -/
theorem entry0_t :
    (W1 m ρ c (Proc.devRef .tc main_v20) : S3x16000.Idx → EReal)
      = Cert.ReferenceIdeal.Read.val_main_v29 (F := Ideal) (m ((c : Thread nD τ).loc main_arg0)) (m ((c : Thread nD τ).loc main_arg1)) := by
  show StableHlo.after hostOps0 (W0 m ρ c) (Proc.devRef .tc main_v20) = _
  after_results_simp
  rfl

/-! ## Before the second region -/

/-- Argument 0 is as launched when the second stretch of host operations begins: the first stretch does not write
    it and it is not one of the first region's arrays. -/
private theorem W2_main_arg0 : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg0) := rfl

/-- Argument 2 is as launched when the second stretch of host operations begins: the first stretch does not write
    it and it is not one of the first region's arrays. -/
private theorem W2_main_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg2) := rfl

/-- Argument 3 is as launched when the second stretch of host operations begins: the first stretch does not write
    it and it is not one of the first region's arrays. -/
private theorem W2_main_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg3) := rfl

/-- Argument 5 is as launched when the second stretch of host operations begins: the first stretch does not write
    it and it is not one of the first region's arrays. -/
private theorem W2_main_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg5) := rfl

/-- Argument 6 is as launched when the second stretch of host operations begins: the first stretch does not write
    it and it is not one of the first region's arrays. -/
private theorem W2_main_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg6) := rfl

/-- The second region's column points, one per column: the transpose of the original targets. -/
theorem entry1_t :
    (W3 m ρ c (Proc.devRef .tc main_v65) : S3x8000.Idx → EReal)
      = Cert.ReferenceIdeal.Read.val_main_v86 (F := Ideal) (m ((c : Thread nD τ).loc main_arg0)) := by
  show StableHlo.after hostOps1 (W2 m ρ c) (Proc.devRef .tc main_v65) = _
  after_results_simp
  rw [W2_main_arg0]
  rfl

/-- The second region's row points: the interpolated sample points, one row per sample, as the reference computes
    them. -/
theorem entry1_q :
    (W3 m ρ c (Proc.devRef .tc main_v64) : S32000x3.Idx → EReal)
      = Cert.ReferenceIdeal.Read.val_main_v76 (F := Ideal) (m ((c : Thread nD τ).loc main_arg2)) (m ((c : Thread nD τ).loc main_arg3))
          (m ((c : Thread nD τ).loc main_arg5)) (m ((c : Thread nD τ).loc main_arg6)) := by
  show StableHlo.after hostOps1 (W2 m ρ c) (Proc.devRef .tc main_v64) = _
  after_results_simp
  rw [W2_main_arg2, W2_main_arg3, W2_main_arg5, W2_main_arg6]
  rfl

end Cert.KernelIdeal.Prefix

end
-- ==== Proof.RefDist.lean ====
/-
  The reference's two row minima, read at an index.

  For a row point x and a column point y (three coordinates each) the reference forms |x|² + |y|² − 2·⟨x, y⟩, each of
  the three sums started from the constant zero, as an entry of a matrix: |x|² is a row sum broadcast across the
  columns, |y|² a row sum of the other matrix broadcast down the rows, and ⟨x, y⟩ an entry of the product of the
  first matrix with the transpose of the second. The minimum along a row, started from +∞, is then the fold of `min`
  over the columns of that expression. Both minima of the reference have this shape; they differ in the two matrices.
-/
import proofs.«115603_j60292750901759_2_alg».proof.Proof.Gen.ReferenceIdeal.Read
import proofs.«115603_j60292750901759_2_alg».proof.Proof.Algebra
import proofs.«115603_j60292750901759_2_alg».proof.Proof.LibRowSums
import Idealize.ShloMosaic.PureOps.Reduce

open scoped BigOperators

noncomputable section

namespace Cert.RefDist

open Cert.ReferenceIdeal Cert.ReferenceIdeal.Gen Cert.ReferenceIdeal.Read Cert.Algebra Idealize.ShloMosaic Idealize.ShloMosaic.ValueIdx

/-! ## The first minimum: 4000 row points against 16000 column points -/

/-- |x|² of row point `p`, broadcast across the columns: zero plus the sum of the squared coordinates. -/
private theorem v26_at (x2 : (⟨S2500x3, .f32⟩ : BufTy).Contents (Elt Ideal)) (x3 : (⟨S4000x3, .i32⟩ : BufTy).Contents (Elt Ideal))
    (p : Fin 4000) (q : Fin 16000) :
    val_main_v26 (F := Ideal) x2 x3 (ix2 p q)
      = Ideal.ofBits .f32 0x00000000#32
        + ∑ k : Fin 3, val_main_v9 (F := Ideal) x2 x3 (ix2 p k) * val_main_v9 (F := Ideal) x2 x3 (ix2 p k) := by
  rw [val_main_v26_apply, val_main_v24_apply, val_main_v21_apply]
  refine congrArg₂ (· + ·) rfl (Finset.sum_congr rfl fun k _ => ?_)
  have e : idx_main_v21 (idx_main_v24 (idx_main_v26 (ix2 p q))) k = ix2 p k :=
    funext fun a => by match a with | ⟨0, _⟩ => rfl | ⟨1, _⟩ => rfl
  exact congrArg (val_main_v20 (F := Ideal) x2 x3) e

/-- |y|² of column point `q`, broadcast down the rows. -/
private theorem v27_at (x0 : (⟨S8000x3, .f32⟩ : BufTy).Contents (Elt Ideal)) (x1 : (⟨S16000x3, .i32⟩ : BufTy).Contents (Elt Ideal))
    (p : Fin 4000) (q : Fin 16000) :
    val_main_v27 (F := Ideal) x0 x1 (ix2 p q)
      = Ideal.ofBits .f32 0x00000000#32
        + ∑ k : Fin 3, val_main_v19 (F := Ideal) x0 x1 (ix2 q k) * val_main_v19 (F := Ideal) x0 x1 (ix2 q k) := by
  rw [val_main_v27_apply, val_main_v25_apply, val_main_v23_apply]
  refine congrArg₂ (· + ·) rfl (Finset.sum_congr rfl fun k _ => ?_)
  have e : idx_main_v23 (idx_main_v25 (idx_main_v27 (ix2 p q))) k = ix2 q k :=
    funext fun a => by match a with | ⟨0, _⟩ => rfl | ⟨1, _⟩ => rfl
  exact congrArg (val_main_v22 (F := Ideal) x0 x1) e

/-- ⟨x, y⟩ for row point `p` and column point `q`: the entry of the product with the transposed matrix. -/
private theorem v30_at (x0 : (⟨S8000x3, .f32⟩ : BufTy).Contents (Elt Ideal)) (x1 : (⟨S16000x3, .i32⟩ : BufTy).Contents (Elt Ideal))
    (x2 : (⟨S2500x3, .f32⟩ : BufTy).Contents (Elt Ideal)) (x3 : (⟨S4000x3, .i32⟩ : BufTy).Contents (Elt Ideal))
    (p : Fin 4000) (q : Fin 16000) :
    val_main_v30 (F := Ideal) x0 x1 x2 x3 (ix2 p q)
      = ∑ k : Fin 3, val_main_v9 (F := Ideal) x2 x3 (ix2 p k) * val_main_v19 (F := Ideal) x0 x1 (ix2 q k) := by
  rw [val_main_v30_apply]
  refine Finset.sum_congr rfl fun k _ => ?_
  have el : lidx_main_v30 (ix2 p q) k = ix2 p k :=
    funext fun a => by match a with | ⟨0, _⟩ => rfl | ⟨1, _⟩ => rfl
  have er : idx_main_v29 (ridx_main_v30 (ix2 p q) k) = ix2 q k :=
    funext fun a => by match a with | ⟨0, _⟩ => rfl | ⟨1, _⟩ => rfl
  rw [val_main_v29_apply]
  exact congrArg₂ (· * ·) (congrArg (val_main_v9 (F := Ideal) x2 x3) el) (congrArg (val_main_v19 (F := Ideal) x0 x1) er)

/-- The matrix entry the first minimum runs over is the expanded squared distance of the two points. -/
theorem v33_at (x0 : (⟨S8000x3, .f32⟩ : BufTy).Contents (Elt Ideal)) (x1 : (⟨S16000x3, .i32⟩ : BufTy).Contents (Elt Ideal))
    (x2 : (⟨S2500x3, .f32⟩ : BufTy).Contents (Elt Ideal)) (x3 : (⟨S4000x3, .i32⟩ : BufTy).Contents (Elt Ideal))
    (p : Fin 4000) (q : Fin 16000) :
    val_main_v33 (F := Ideal) x0 x1 x2 x3 (ix2 p q)
      = sqExpand (Ideal.ofBits .f32 0x00000000#32) (Ideal.ofBits .f32 0x40000000#32)
          (fun k => val_main_v9 (F := Ideal) x2 x3 (ix2 p k)) (fun k => val_main_v19 (F := Ideal) x0 x1 (ix2 q k)) := by
  rw [val_main_v33_apply, val_main_v28_apply, val_main_v32_apply, val_main_v31_apply, v26_at, v27_at, v30_at]
  rfl

/-- The first row minimum at row point `p`: the fold of `min` from +∞ over the column points `q` of the expanded
    squared distance between `p` and `q`. -/
theorem v34_apply (x0 : (⟨S8000x3, .f32⟩ : BufTy).Contents (Elt Ideal)) (x1 : (⟨S16000x3, .i32⟩ : BufTy).Contents (Elt Ideal))
    (x2 : (⟨S2500x3, .f32⟩ : BufTy).Contents (Elt Ideal)) (x3 : (⟨S4000x3, .i32⟩ : BufTy).Contents (Elt Ideal))
    (p : Fin 4000) :
    val_main_v34 (F := Ideal) x0 x1 x2 x3 (ix1 p)
      = (Finset.univ : Finset (Fin 16000)).fold min (Ideal.ofBits .f32 0x7F800000#32)
          (fun q => sqExpand (Ideal.ofBits .f32 0x00000000#32) (Ideal.ofBits .f32 0x40000000#32)
            (fun k => val_main_v9 (F := Ideal) x2 x3 (ix2 p k)) (fun k => val_main_v19 (F := Ideal) x0 x1 (ix2 q k))) := by
  have h : S4000x16000.Reduces [1] S4000 := by decide
  unfold val_main_v34
  rw [Host.reduce_eq_fold_single FloatOps.minimumf _ _ reducesTo_S4000x16000_S4000_d1 h h_S_]
  have hf : (val_main_v33 (F := Ideal) x0 x1 x2 x3 ∘ h.lift (ix1 p))
      = fun q : Fin 16000 => sqExpand (Ideal.ofBits .f32 0x00000000#32) (Ideal.ofBits .f32 0x40000000#32)
          (fun k => val_main_v9 (F := Ideal) x2 x3 (ix2 p k)) (fun k => val_main_v19 (F := Ideal) x0 x1 (ix2 q k)) :=
    funext fun q => (congrArg (val_main_v33 (F := Ideal) x0 x1 x2 x3) (Cert.LibRowSums.lift_row h p q)).trans
      (v33_at x0 x1 x2 x3 p q)
  exact congrArg (fun f => Finset.fold min (Ideal.ofBits .f32 0x7F800000#32) f (Finset.univ : Finset (Fin 16000))) hf

/-! ## The second minimum: 32000 row points against 8000 column points -/

/-- |x|² of row point `p`, broadcast across the columns. -/
private theorem v83_at (x2 : (⟨S2500x3, .f32⟩ : BufTy).Contents (Elt Ideal)) (x3 : (⟨S4000x3, .i32⟩ : BufTy).Contents (Elt Ideal))
    (x5 x6 : (⟨S4000x8x1, .f32⟩ : BufTy).Contents (Elt Ideal)) (p : Fin 32000) (q : Fin 8000) :
    val_main_v83 (F := Ideal) x2 x3 x5 x6 (ix2 p q)
      = Ideal.ofBits .f32 0x00000000#32
        + ∑ k : Fin 3, val_main_v76 (F := Ideal) x2 x3 x5 x6 (ix2 p k) * val_main_v76 (F := Ideal) x2 x3 x5 x6 (ix2 p k) := by
  rw [val_main_v83_apply, val_main_v81_apply, val_main_v78_apply]
  refine congrArg₂ (· + ·) rfl (Finset.sum_congr rfl fun k _ => ?_)
  have e : idx_main_v78 (idx_main_v81 (idx_main_v83 (ix2 p q))) k = ix2 p k :=
    funext fun a => by match a with | ⟨0, _⟩ => rfl | ⟨1, _⟩ => rfl
  exact congrArg (val_main_v77 (F := Ideal) x2 x3 x5 x6) e

/-- |y|² of column point `q`, broadcast down the rows. -/
private theorem v84_at (x0 : (⟨S8000x3, .f32⟩ : BufTy).Contents (Elt Ideal)) (p : Fin 32000) (q : Fin 8000) :
    val_main_v84 (F := Ideal) x0 (ix2 p q)
      = Ideal.ofBits .f32 0x00000000#32 + ∑ k : Fin 3, x0 (ix2 q k) * x0 (ix2 q k) := by
  rw [val_main_v84_apply, val_main_v82_apply, val_main_v80_apply]
  refine congrArg₂ (· + ·) rfl (Finset.sum_congr rfl fun k _ => ?_)
  have e : idx_main_v80 (idx_main_v82 (idx_main_v84 (ix2 p q))) k = ix2 q k :=
    funext fun a => by match a with | ⟨0, _⟩ => rfl | ⟨1, _⟩ => rfl
  exact congrArg (val_main_v79 (F := Ideal) x0) e

/-- ⟨x, y⟩ for row point `p` and column point `q`. -/
private theorem v87_at (x0 : (⟨S8000x3, .f32⟩ : BufTy).Contents (Elt Ideal)) (x2 : (⟨S2500x3, .f32⟩ : BufTy).Contents (Elt Ideal))
    (x3 : (⟨S4000x3, .i32⟩ : BufTy).Contents (Elt Ideal)) (x5 x6 : (⟨S4000x8x1, .f32⟩ : BufTy).Contents (Elt Ideal))
    (p : Fin 32000) (q : Fin 8000) :
    val_main_v87 (F := Ideal) x0 x2 x3 x5 x6 (ix2 p q)
      = ∑ k : Fin 3, val_main_v76 (F := Ideal) x2 x3 x5 x6 (ix2 p k) * x0 (ix2 q k) := by
  rw [val_main_v87_apply]
  refine Finset.sum_congr rfl fun k _ => ?_
  have el : lidx_main_v87 (ix2 p q) k = ix2 p k :=
    funext fun a => by match a with | ⟨0, _⟩ => rfl | ⟨1, _⟩ => rfl
  have er : idx_main_v86 (ridx_main_v87 (ix2 p q) k) = ix2 q k :=
    funext fun a => by match a with | ⟨0, _⟩ => rfl | ⟨1, _⟩ => rfl
  rw [val_main_v86_apply]
  exact congrArg₂ (· * ·) (congrArg (val_main_v76 (F := Ideal) x2 x3 x5 x6) el) (congrArg x0 er)

/-- The matrix entry the second minimum runs over is the expanded squared distance of the two points. -/
theorem v90_at (x0 : (⟨S8000x3, .f32⟩ : BufTy).Contents (Elt Ideal)) (x2 : (⟨S2500x3, .f32⟩ : BufTy).Contents (Elt Ideal))
    (x3 : (⟨S4000x3, .i32⟩ : BufTy).Contents (Elt Ideal)) (x5 x6 : (⟨S4000x8x1, .f32⟩ : BufTy).Contents (Elt Ideal))
    (p : Fin 32000) (q : Fin 8000) :
    val_main_v90 (F := Ideal) x0 x2 x3 x5 x6 (ix2 p q)
      = sqExpand (Ideal.ofBits .f32 0x00000000#32) (Ideal.ofBits .f32 0x40000000#32)
          (fun k => val_main_v76 (F := Ideal) x2 x3 x5 x6 (ix2 p k)) (fun k => x0 (ix2 q k)) := by
  rw [val_main_v90_apply, val_main_v85_apply, val_main_v89_apply, val_main_v88_apply, v83_at, v84_at, v87_at]
  rfl

/-- The second row minimum at row point `p`: the fold of `min` from +∞ over the column points `q` of the expanded
    squared distance between `p` and `q`. -/
theorem v91_apply (x0 : (⟨S8000x3, .f32⟩ : BufTy).Contents (Elt Ideal)) (x2 : (⟨S2500x3, .f32⟩ : BufTy).Contents (Elt Ideal))
    (x3 : (⟨S4000x3, .i32⟩ : BufTy).Contents (Elt Ideal)) (x5 x6 : (⟨S4000x8x1, .f32⟩ : BufTy).Contents (Elt Ideal))
    (p : Fin 32000) :
    val_main_v91 (F := Ideal) x0 x2 x3 x5 x6 (ix1 p)
      = (Finset.univ : Finset (Fin 8000)).fold min (Ideal.ofBits .f32 0x7F800000#32)
          (fun q => sqExpand (Ideal.ofBits .f32 0x00000000#32) (Ideal.ofBits .f32 0x40000000#32)
            (fun k => val_main_v76 (F := Ideal) x2 x3 x5 x6 (ix2 p k)) (fun k => x0 (ix2 q k))) := by
  have h : S32000x8000.Reduces [1] S32000 := by decide
  unfold val_main_v91
  rw [Host.reduce_eq_fold_single FloatOps.minimumf _ _ reducesTo_S32000x8000_S32000_d1 h h_S_]
  have hf : (val_main_v90 (F := Ideal) x0 x2 x3 x5 x6 ∘ h.lift (ix1 p))
      = fun q : Fin 8000 => sqExpand (Ideal.ofBits .f32 0x00000000#32) (Ideal.ofBits .f32 0x40000000#32)
          (fun k => val_main_v76 (F := Ideal) x2 x3 x5 x6 (ix2 p k)) (fun k => x0 (ix2 q k)) :=
    funext fun q => (congrArg (val_main_v90 (F := Ideal) x0 x2 x3 x5 x6) (Cert.LibRowSums.lift_row h p q)).trans
      (v90_at x0 x2 x3 x5 x6 p q)
  exact congrArg (fun f => Finset.fold min (Ideal.ofBits .f32 0x7F800000#32) f (Finset.univ : Finset (Fin 8000))) hf

end Cert.RefDist

end
-- ==== Proof.Finite.lean ====
/-
  Every entry of the reference's intermediate point sets is a real number.

  The reference builds three point sets from its arguments: the barycentres of the triangles of two meshes (a gather of
  three vertex rows, their sum from zero, divided by three) and, on the second mesh, eight sample points per triangle,
  (1 − √u)·p + √u·(1 − v)·q + √u·v·r with p, q, r the triangle's vertices. Sums, differences and products of reals are
  real, the square root of a non-negative real is real, a real divided by three is real, and an operation that only
  moves entries around keeps them real. So real vertices (and real v, real non-negative u) give real points.
-/
import proofs.«115603_j60292750901759_2_alg».proof.Proof.Gen.ReferenceIdeal.Read
import proofs.«115603_j60292750901759_2_alg».proof.Proof.Algebra

open scoped BigOperators

noncomputable section

namespace Cert.Finite

open Cert.ReferenceIdeal Cert.ReferenceIdeal.Read Cert.Algebra Idealize.ShloMosaic

/-- The float words zero, one and three denote reals. -/
theorem real_word_zero : IsReal (FloatOps.ofBits (F := Ideal) .f32 0x00000000#32) := by
  rw [Ideal.ofBits_def, ofBits_zero]; exact IsReal.coe 0
theorem real_word_one : IsReal (FloatOps.ofBits (F := Ideal) .f32 0x3F800000#32) := by
  rw [Ideal.ofBits_def, ofBits_one]; exact IsReal.coe 1

/-! ### Barycentres of the second mesh (operations 6–9) -/

/-- A gathered row entry is an entry of the vertex table. -/
theorem real_v6 (x2 : (⟨S2500x3, .f32⟩ : BufTy).Contents (Elt Ideal)) (x3 : (⟨S4000x3, .i32⟩ : BufTy).Contents (Elt Ideal)) (h2 : ∀ i, IsReal (x2 i)) :
    ∀ i, IsReal (val_main_v6 (F := Ideal) x2 x3 i) := fun i => by
  unfold val_main_v6 Host.gather; exact h2 _

/-- The sum of a triangle's three vertices, started from zero. -/
theorem real_v7 (x2 : (⟨S2500x3, .f32⟩ : BufTy).Contents (Elt Ideal)) (x3 : (⟨S4000x3, .i32⟩ : BufTy).Contents (Elt Ideal)) (h2 : ∀ i, IsReal (x2 i)) :
    ∀ i, IsReal (val_main_v7 (F := Ideal) x2 x3 i) := fun i => by
  rw [val_main_v7_apply, val_main_cst_apply]
  exact IsReal.add real_word_zero (IsReal.sum _ _ fun k => real_v6 x2 x3 h2 _)

/-- Divided by three. -/
theorem real_v9 (x2 : (⟨S2500x3, .f32⟩ : BufTy).Contents (Elt Ideal)) (x3 : (⟨S4000x3, .i32⟩ : BufTy).Contents (Elt Ideal)) (h2 : ∀ i, IsReal (x2 i)) :
    ∀ i, IsReal (val_main_v9 (F := Ideal) x2 x3 i) := fun i => by
  rw [val_main_v9_apply, Ideal.hostDivf_def, val_main_v8_apply, val_main_cst_1_apply, Ideal.ofBits_def, ofBits_three]
  exact IsReal.div_coe (real_v7 x2 x3 h2 i) (by norm_num)

/-! ### Barycentres of the first mesh (operations 16–19) -/

theorem real_v16 (x0 : (⟨S8000x3, .f32⟩ : BufTy).Contents (Elt Ideal)) (x1 : (⟨S16000x3, .i32⟩ : BufTy).Contents (Elt Ideal)) (h0 : ∀ i, IsReal (x0 i)) :
    ∀ i, IsReal (val_main_v16 (F := Ideal) x0 x1 i) := fun i => by
  unfold val_main_v16 Host.gather; exact h0 _

theorem real_v17 (x0 : (⟨S8000x3, .f32⟩ : BufTy).Contents (Elt Ideal)) (x1 : (⟨S16000x3, .i32⟩ : BufTy).Contents (Elt Ideal)) (h0 : ∀ i, IsReal (x0 i)) :
    ∀ i, IsReal (val_main_v17 (F := Ideal) x0 x1 i) := fun i => by
  rw [val_main_v17_apply, val_main_cst_4_apply]
  exact IsReal.add real_word_zero (IsReal.sum _ _ fun k => real_v16 x0 x1 h0 _)

theorem real_v19 (x0 : (⟨S8000x3, .f32⟩ : BufTy).Contents (Elt Ideal)) (x1 : (⟨S16000x3, .i32⟩ : BufTy).Contents (Elt Ideal)) (h0 : ∀ i, IsReal (x0 i)) :
    ∀ i, IsReal (val_main_v19 (F := Ideal) x0 x1 i) := fun i => by
  rw [val_main_v19_apply, Ideal.hostDivf_def, val_main_v18_apply, val_main_cst_5_apply, Ideal.ofBits_def, ofBits_three]
  exact IsReal.div_coe (real_v17 x0 x1 h0 i) (by norm_num)

/-! ### Sample points on the second mesh (operations 48–76) -/

/-- The gathered vertices p, q, r of each triangle. -/
theorem real_v48 (x2 : (⟨S2500x3, .f32⟩ : BufTy).Contents (Elt Ideal)) (x3 : (⟨S4000x3, .i32⟩ : BufTy).Contents (Elt Ideal)) (h2 : ∀ i, IsReal (x2 i)) :
    ∀ i, IsReal (val_main_v48 (F := Ideal) x2 x3 i) := fun i => by
  unfold val_main_v48 Host.gather; exact h2 _

/-- √u. -/
theorem real_v49 (x5 : (⟨S4000x8x1, .f32⟩ : BufTy).Contents (Elt Ideal)) (h5 : ∀ i, ∃ r : ℝ, 0 ≤ r ∧ x5 i = (r : EReal)) :
    ∀ i, IsReal (val_main_v49 (F := Ideal) x5 i) := fun i => by
  rw [val_main_v49_apply, Ideal.hostUnary_sqrt_def]; exact IsReal.sqrt (h5 i)

theorem real_v50 : ∀ i, IsReal (val_main_v50 (F := Ideal) i) := fun i => by
  rw [val_main_v50_apply, val_main_cst_16_apply]; exact real_word_one

/-- 1 − √u. -/
theorem real_v51 (x5 : (⟨S4000x8x1, .f32⟩ : BufTy).Contents (Elt Ideal)) (h5 : ∀ i, ∃ r : ℝ, 0 ≤ r ∧ x5 i = (r : EReal)) :
    ∀ i, IsReal (val_main_v51 (F := Ideal) x5 i) := fun i => by
  rw [val_main_v51_apply, Ideal.subf_def]; exact IsReal.sub (real_v50 i) (real_v49 x5 h5 i)

theorem real_v52 : ∀ i, IsReal (val_main_v52 (F := Ideal) i) := fun i => by
  rw [val_main_v52_apply, val_main_cst_17_apply]; exact real_word_one

/-- 1 − v. -/
theorem real_v53 (x6 : (⟨S4000x8x1, .f32⟩ : BufTy).Contents (Elt Ideal)) (h6 : ∀ i, IsReal (x6 i)) :
    ∀ i, IsReal (val_main_v53 (F := Ideal) x6 i) := fun i => by
  rw [val_main_v53_apply, Ideal.subf_def]; exact IsReal.sub (real_v52 i) (h6 i)

/-- √u·(1 − v). -/
theorem real_v54 (x5 x6 : (⟨S4000x8x1, .f32⟩ : BufTy).Contents (Elt Ideal)) (h5 : ∀ i, ∃ r : ℝ, 0 ≤ r ∧ x5 i = (r : EReal)) (h6 : ∀ i, IsReal (x6 i)) :
    ∀ i, IsReal (val_main_v54 (F := Ideal) x5 x6 i) := fun i => by
  rw [val_main_v54_apply, Ideal.mulf_def]; exact IsReal.mul (real_v49 x5 h5 i) (real_v53 x6 h6 i)

/-- √u·v. -/
theorem real_v55 (x5 x6 : (⟨S4000x8x1, .f32⟩ : BufTy).Contents (Elt Ideal)) (h5 : ∀ i, ∃ r : ℝ, 0 ≤ r ∧ x5 i = (r : EReal)) (h6 : ∀ i, IsReal (x6 i)) :
    ∀ i, IsReal (val_main_v55 (F := Ideal) x5 x6 i) := fun i => by
  rw [val_main_v55_apply, Ideal.mulf_def]; exact IsReal.mul (real_v49 x5 h5 i) (h6 i)

/-- The vertex p of each triangle, laid out along the eight samples. -/
theorem real_v56 (x2 : (⟨S2500x3, .f32⟩ : BufTy).Contents (Elt Ideal)) (x3 : (⟨S4000x3, .i32⟩ : BufTy).Contents (Elt Ideal)) (h2 : ∀ i, IsReal (x2 i)) :
    ∀ i, IsReal (val_main_v56 (F := Ideal) x2 x3 i) := fun i => by
  rw [val_main_v56_apply]; exact real_v48 x2 x3 h2 _
theorem real_v57 (x2 : (⟨S2500x3, .f32⟩ : BufTy).Contents (Elt Ideal)) (x3 : (⟨S4000x3, .i32⟩ : BufTy).Contents (Elt Ideal)) (h2 : ∀ i, IsReal (x2 i)) :
    ∀ i, IsReal (val_main_v57 (F := Ideal) x2 x3 i) := fun i => by
  rw [val_main_v57_apply]; exact real_v56 x2 x3 h2 _
theorem real_v58 (x2 : (⟨S2500x3, .f32⟩ : BufTy).Contents (Elt Ideal)) (x3 : (⟨S4000x3, .i32⟩ : BufTy).Contents (Elt Ideal)) (h2 : ∀ i, IsReal (x2 i)) :
    ∀ i, IsReal (val_main_v58 (F := Ideal) x2 x3 i) := fun i => by
  rw [val_main_v58_apply]; exact real_v57 x2 x3 h2 _
theorem real_v59 (x5 : (⟨S4000x8x1, .f32⟩ : BufTy).Contents (Elt Ideal)) (h5 : ∀ i, ∃ r : ℝ, 0 ≤ r ∧ x5 i = (r : EReal)) :
    ∀ i, IsReal (val_main_v59 (F := Ideal) x5 i) := fun i => by
  rw [val_main_v59_apply]; exact real_v51 x5 h5 _
theorem real_v60 (x2 : (⟨S2500x3, .f32⟩ : BufTy).Contents (Elt Ideal)) (x3 : (⟨S4000x3, .i32⟩ : BufTy).Contents (Elt Ideal)) (h2 : ∀ i, IsReal (x2 i)) :
    ∀ i, IsReal (val_main_v60 (F := Ideal) x2 x3 i) := fun i => by
  rw [val_main_v60_apply]; exact real_v58 x2 x3 h2 _

/-- (1 − √u)·p. -/
theorem real_v61 (x2 : (⟨S2500x3, .f32⟩ : BufTy).Contents (Elt Ideal)) (x3 : (⟨S4000x3, .i32⟩ : BufTy).Contents (Elt Ideal)) (x5 : (⟨S4000x8x1, .f32⟩ : BufTy).Contents (Elt Ideal)) (h2 : ∀ i, IsReal (x2 i)) (h5 : ∀ i, ∃ r : ℝ, 0 ≤ r ∧ x5 i = (r : EReal)) :
    ∀ i, IsReal (val_main_v61 (F := Ideal) x2 x3 x5 i) := fun i => by
  rw [val_main_v61_apply, Ideal.mulf_def]; exact IsReal.mul (real_v59 x5 h5 i) (real_v60 x2 x3 h2 i)

/-- The vertex q. -/
theorem real_v62 (x2 : (⟨S2500x3, .f32⟩ : BufTy).Contents (Elt Ideal)) (x3 : (⟨S4000x3, .i32⟩ : BufTy).Contents (Elt Ideal)) (h2 : ∀ i, IsReal (x2 i)) :
    ∀ i, IsReal (val_main_v62 (F := Ideal) x2 x3 i) := fun i => by
  rw [val_main_v62_apply]; exact real_v48 x2 x3 h2 _
theorem real_v63 (x2 : (⟨S2500x3, .f32⟩ : BufTy).Contents (Elt Ideal)) (x3 : (⟨S4000x3, .i32⟩ : BufTy).Contents (Elt Ideal)) (h2 : ∀ i, IsReal (x2 i)) :
    ∀ i, IsReal (val_main_v63 (F := Ideal) x2 x3 i) := fun i => by
  rw [val_main_v63_apply]; exact real_v62 x2 x3 h2 _
theorem real_v64 (x2 : (⟨S2500x3, .f32⟩ : BufTy).Contents (Elt Ideal)) (x3 : (⟨S4000x3, .i32⟩ : BufTy).Contents (Elt Ideal)) (h2 : ∀ i, IsReal (x2 i)) :
    ∀ i, IsReal (val_main_v64 (F := Ideal) x2 x3 i) := fun i => by
  rw [val_main_v64_apply]; exact real_v63 x2 x3 h2 _
theorem real_v65 (x5 x6 : (⟨S4000x8x1, .f32⟩ : BufTy).Contents (Elt Ideal)) (h5 : ∀ i, ∃ r : ℝ, 0 ≤ r ∧ x5 i = (r : EReal)) (h6 : ∀ i, IsReal (x6 i)) :
    ∀ i, IsReal (val_main_v65 (F := Ideal) x5 x6 i) := fun i => by
  rw [val_main_v65_apply]; exact real_v54 x5 x6 h5 h6 _
theorem real_v66 (x2 : (⟨S2500x3, .f32⟩ : BufTy).Contents (Elt Ideal)) (x3 : (⟨S4000x3, .i32⟩ : BufTy).Contents (Elt Ideal)) (h2 : ∀ i, IsReal (x2 i)) :
    ∀ i, IsReal (val_main_v66 (F := Ideal) x2 x3 i) := fun i => by
  rw [val_main_v66_apply]; exact real_v64 x2 x3 h2 _

/-- √u·(1 − v)·q. -/
theorem real_v67 (x2 : (⟨S2500x3, .f32⟩ : BufTy).Contents (Elt Ideal)) (x3 : (⟨S4000x3, .i32⟩ : BufTy).Contents (Elt Ideal)) (x5 x6 : (⟨S4000x8x1, .f32⟩ : BufTy).Contents (Elt Ideal)) (h2 : ∀ i, IsReal (x2 i)) (h5 : ∀ i, ∃ r : ℝ, 0 ≤ r ∧ x5 i = (r : EReal)) (h6 : ∀ i, IsReal (x6 i)) :
    ∀ i, IsReal (val_main_v67 (F := Ideal) x2 x3 x5 x6 i) := fun i => by
  rw [val_main_v67_apply, Ideal.mulf_def]; exact IsReal.mul (real_v65 x5 x6 h5 h6 i) (real_v66 x2 x3 h2 i)

theorem real_v68 (x2 : (⟨S2500x3, .f32⟩ : BufTy).Contents (Elt Ideal)) (x3 : (⟨S4000x3, .i32⟩ : BufTy).Contents (Elt Ideal)) (x5 x6 : (⟨S4000x8x1, .f32⟩ : BufTy).Contents (Elt Ideal)) (h2 : ∀ i, IsReal (x2 i)) (h5 : ∀ i, ∃ r : ℝ, 0 ≤ r ∧ x5 i = (r : EReal)) (h6 : ∀ i, IsReal (x6 i)) :
    ∀ i, IsReal (val_main_v68 (F := Ideal) x2 x3 x5 x6 i) := fun i => by
  rw [val_main_v68_apply, Ideal.addf_def]; exact IsReal.add (real_v61 x2 x3 x5 h2 h5 i) (real_v67 x2 x3 x5 x6 h2 h5 h6 i)

/-- The vertex r. -/
theorem real_v69 (x2 : (⟨S2500x3, .f32⟩ : BufTy).Contents (Elt Ideal)) (x3 : (⟨S4000x3, .i32⟩ : BufTy).Contents (Elt Ideal)) (h2 : ∀ i, IsReal (x2 i)) :
    ∀ i, IsReal (val_main_v69 (F := Ideal) x2 x3 i) := fun i => by
  rw [val_main_v69_apply]; exact real_v48 x2 x3 h2 _
theorem real_v70 (x2 : (⟨S2500x3, .f32⟩ : BufTy).Contents (Elt Ideal)) (x3 : (⟨S4000x3, .i32⟩ : BufTy).Contents (Elt Ideal)) (h2 : ∀ i, IsReal (x2 i)) :
    ∀ i, IsReal (val_main_v70 (F := Ideal) x2 x3 i) := fun i => by
  rw [val_main_v70_apply]; exact real_v69 x2 x3 h2 _
theorem real_v71 (x2 : (⟨S2500x3, .f32⟩ : BufTy).Contents (Elt Ideal)) (x3 : (⟨S4000x3, .i32⟩ : BufTy).Contents (Elt Ideal)) (h2 : ∀ i, IsReal (x2 i)) :
    ∀ i, IsReal (val_main_v71 (F := Ideal) x2 x3 i) := fun i => by
  rw [val_main_v71_apply]; exact real_v70 x2 x3 h2 _
theorem real_v72 (x5 x6 : (⟨S4000x8x1, .f32⟩ : BufTy).Contents (Elt Ideal)) (h5 : ∀ i, ∃ r : ℝ, 0 ≤ r ∧ x5 i = (r : EReal)) (h6 : ∀ i, IsReal (x6 i)) :
    ∀ i, IsReal (val_main_v72 (F := Ideal) x5 x6 i) := fun i => by
  rw [val_main_v72_apply]; exact real_v55 x5 x6 h5 h6 _
theorem real_v73 (x2 : (⟨S2500x3, .f32⟩ : BufTy).Contents (Elt Ideal)) (x3 : (⟨S4000x3, .i32⟩ : BufTy).Contents (Elt Ideal)) (h2 : ∀ i, IsReal (x2 i)) :
    ∀ i, IsReal (val_main_v73 (F := Ideal) x2 x3 i) := fun i => by
  rw [val_main_v73_apply]; exact real_v71 x2 x3 h2 _

/-- √u·v·r. -/
theorem real_v74 (x2 : (⟨S2500x3, .f32⟩ : BufTy).Contents (Elt Ideal)) (x3 : (⟨S4000x3, .i32⟩ : BufTy).Contents (Elt Ideal)) (x5 x6 : (⟨S4000x8x1, .f32⟩ : BufTy).Contents (Elt Ideal)) (h2 : ∀ i, IsReal (x2 i)) (h5 : ∀ i, ∃ r : ℝ, 0 ≤ r ∧ x5 i = (r : EReal)) (h6 : ∀ i, IsReal (x6 i)) :
    ∀ i, IsReal (val_main_v74 (F := Ideal) x2 x3 x5 x6 i) := fun i => by
  rw [val_main_v74_apply, Ideal.mulf_def]; exact IsReal.mul (real_v72 x5 x6 h5 h6 i) (real_v73 x2 x3 h2 i)

/-- The sample point (1 − √u)·p + √u·(1 − v)·q + √u·v·r. -/
theorem real_v75 (x2 : (⟨S2500x3, .f32⟩ : BufTy).Contents (Elt Ideal)) (x3 : (⟨S4000x3, .i32⟩ : BufTy).Contents (Elt Ideal)) (x5 x6 : (⟨S4000x8x1, .f32⟩ : BufTy).Contents (Elt Ideal)) (h2 : ∀ i, IsReal (x2 i)) (h5 : ∀ i, ∃ r : ℝ, 0 ≤ r ∧ x5 i = (r : EReal)) (h6 : ∀ i, IsReal (x6 i)) :
    ∀ i, IsReal (val_main_v75 (F := Ideal) x2 x3 x5 x6 i) := fun i => by
  rw [val_main_v75_apply, Ideal.addf_def]; exact IsReal.add (real_v68 x2 x3 x5 x6 h2 h5 h6 i) (real_v74 x2 x3 x5 x6 h2 h5 h6 i)

/-- The sample points as one list of 32000 points. -/
theorem real_v76 (x2 : (⟨S2500x3, .f32⟩ : BufTy).Contents (Elt Ideal)) (x3 : (⟨S4000x3, .i32⟩ : BufTy).Contents (Elt Ideal)) (x5 x6 : (⟨S4000x8x1, .f32⟩ : BufTy).Contents (Elt Ideal)) (h2 : ∀ i, IsReal (x2 i)) (h5 : ∀ i, ∃ r : ℝ, 0 ≤ r ∧ x5 i = (r : EReal)) (h6 : ∀ i, IsReal (x6 i)) :
    ∀ i, IsReal (val_main_v76 (F := Ideal) x2 x3 x5 x6 i) := fun i => by
  rw [val_main_v76_apply]; exact real_v75 x2 x3 x5 x6 h2 h5 h6 _

end Cert.Finite

end
-- ==== Proof.Pre.lean ====
/-
  What the precondition says of the arguments.

  The precondition is a conjunction of six "for all entries" tests: |x| < +∞ for every entry of the two vertex tables,
  of the weights and of the two sample parameters, and 0 ≤ u for every entry of the first sample parameter. An extended
  real whose absolute value max x (−x) lies strictly below +∞ is neither +∞ nor −∞, so it is a real number; and a real
  that is at least zero is a non-negative real. Read at each entry, the precondition therefore gives: the vertex tables
  and the second sample parameter are real, and the first sample parameter is a non-negative real.
-/
import proofs.«115603_j60292750901759_2_alg».proof.Proof.Gen.Pre_finite_inputs
import proofs.«115603_j60292750901759_2_alg».proof.Proof.Algebra
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs

/-- The float word with all exponent bits set and no fraction bit denotes +∞. -/
theorem ofBits_inf : Ideal.ofBits .f32 0x7F800000#32 = (⊤ : EReal) := by
  simp [Ideal.ofBits, Ideal.ieee]

/-- An extended real whose absolute value is strictly below +∞ is a real: at −∞ and at +∞ the absolute value is +∞. -/
theorem isReal_of_abs_lt (x : EReal)
    (h : FloatOps.cmpf (F := Ideal) (φ := .f32) .olt (FloatOps.hostAbsf (F := Ideal) (φ := .f32) x)
      (FloatOps.ofBits (F := Ideal) .f32 0x7F800000#32) = 1#1) :
    Cert.Algebra.IsReal x := by
  rw [Ideal.cmpf_def, Ideal.hostAbsf_def, Ideal.absf_def, Ideal.ofBits_def, ofBits_inf] at h
  induction x using EReal.rec with
  | bot => simp [Ideal.cmp] at h
  | coe r => exact ⟨r, rfl⟩
  | top => simp [Ideal.cmp] at h

/-- The test "x ≥ 0" that came out true says 0 ≤ x. -/
theorem nonneg_of_ge (x : EReal)
    (h : FloatOps.cmpf (F := Ideal) (φ := .f32) .oge x (FloatOps.ofBits (F := Ideal) .f32 0x00000000#32) = 1#1) :
    0 ≤ x := by
  rw [Ideal.cmpf_def, Ideal.ofBits_def, Cert.Algebra.ofBits_zero, EReal.coe_zero] at h
  by_contra hx
  simp [Ideal.cmp, hx] at h

/-- The result of a reduction over every axis has exactly one index. -/
instance : Subsingleton S_.Idx := ⟨fun a b => funext fun d => d.elim0⟩

/-- The precondition, read entry by entry. -/
theorem of_pre (a0 : FVec Ideal S8000x3 .f32) (a1 : IVec S16000x3 32) (a2 : FVec Ideal S2500x3 .f32) (a3 : IVec S4000x3 32)
    (a4 : FVec Ideal S4000 .f32) (a5 a6 : FVec Ideal S4000x8x1 .f32)
    (h : Cert.Pre_finite_inputs.fn (F := Ideal) a0 a1 a2 a3 a4 a5 a6 = (fun _ => 1#1)) :
    (∀ i, Cert.Algebra.IsReal (a0 i)) ∧ (∀ i, Cert.Algebra.IsReal (a2 i)) ∧
      (∀ i, ∃ r : ℝ, 0 ≤ r ∧ a5 i = (r : EReal)) ∧ (∀ i, Cert.Algebra.IsReal (a6 i)) := by
  -- the one entry of the result is a conjunction of six "for all entries" tests
  have h0 := congrFun h ValueIdx.ix0
  dsimp only [fn, fn_part1, andi] at h0
  simp only [IntOp.andi_eq_one] at h0
  obtain ⟨⟨⟨⟨⟨e3, e7⟩, _⟩, e17⟩, e22⟩, e26⟩ := h0
  refine ⟨fun i => isReal_of_abs_lt _ (Host.reduce_andi_all _ _ _ _ _ e3 i),
    fun i => isReal_of_abs_lt _ (Host.reduce_andi_all _ _ _ _ _ e7 i), fun i => ?_,
    fun i => isReal_of_abs_lt _ (Host.reduce_andi_all _ _ _ _ _ e22 i)⟩
  -- the first sample parameter: real by the first test on it, non-negative by the second
  obtain ⟨r, hr⟩ := isReal_of_abs_lt _ (Host.reduce_andi_all _ _ _ _ _ e17 i)
  have hn := nonneg_of_ge _ (Host.reduce_andi_all _ _ _ _ _ e26 i)
  refine ⟨r, ?_, hr⟩
  rw [hr] at hn; exact EReal.coe_nonneg.mp hn

end Cert.PreFacts

end
-- ==== Proof.Bridge.lean ====
/-
  The two programs end with one value.

  Each region's output column, flattened, is the reference's corresponding row minimum: both are, at row `p`, the
  minimum from +∞ over the target points `q` of the squared distance between query point `p` and target point `q`
  — the kernel's as the sum of squared coordinate differences, the reference's as |x|² + |y|² − 2⟨x, y⟩ — and the two
  spellings agree because every coordinate is a real number: the query and target points are barycentres of finite
  vertices, finite vertices themselves, or combinations of finite vertices with weights built from the square root of
  a NON-NEGATIVE finite number. The arrays the regions are entered with are the same functions of the arguments as
  the reference's intermediates, and both programs close with the same arithmetic on the two minima.
-/
import proofs.«115603_j60292750901759_2_alg».proof.Proof.Region0
import proofs.«115603_j60292750901759_2_alg».proof.Proof.Region1
import proofs.«115603_j60292750901759_2_alg».proof.Proof.KernelRun
import proofs.«115603_j60292750901759_2_alg».proof.Proof.KernelPrefix
import proofs.«115603_j60292750901759_2_alg».proof.Proof.RefDist
import proofs.«115603_j60292750901759_2_alg».proof.Proof.Finite
import proofs.«115603_j60292750901759_2_alg».proof.Proof.Pre

set_option maxRecDepth 16384

noncomputable section

namespace Cert.Bridge

open Cert.KernelIdeal Cert.KernelIdeal.Gen Cert.Algebra Cert.RowMin
open Idealize.ShloMosaic Idealize.ShloMosaic.TcCoe Idealize.ShloMosaic.ValueIdx Idealize.SL.Sem

/-- On real coordinates the row minimum of squared coordinate differences is the row minimum of the expanded form. -/
theorem rowMin_eq {b : ℕ} (x : Fin 3 → EReal) (y : Fin b → Fin 3 → EReal) (hx : ∀ k, IsReal (x k)) (hy : ∀ q k, IsReal (y q k)) :
    rowMin x y = (Finset.univ : Finset (Fin b)).fold min (Ideal.ofBits .f32 0x7F800000#32)
      (fun q => sqExpand (Ideal.ofBits .f32 0x00000000#32) (Ideal.ofBits .f32 0x40000000#32) x (y q)) := by
  unfold rowMin
  refine congrArg (fun f => Finset.fold min (Ideal.ofBits .f32 0x7F800000#32) f (Finset.univ : Finset (Fin b))) (funext fun q => ?_)
  rw [sqDiff_eq_sqExpand x (y q) hx (hy q), ofBits_zero, ofBits_two, EReal.coe_zero]

variable (m : (ℓ : Loc nD τ sig) → Buf (Elt Ideal) ℓ) (ρ : Dev nD → PrngReg) (c : Dev nD)

/-- The first region's column, flattened, is the reference's forward row minimum. -/
theorem forward_col (h0 : ∀ i, IsReal ((m ((c : Thread nD τ).loc main_arg0)) i)) (h2 : ∀ i, IsReal ((m ((c : Thread nD τ).loc main_arg2)) i)) :
    shapeCast S4000 (W2 m ρ c (Proc.devRef .tc main_v21)) shapeCasts_S4000x1_S4000
      = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) := by
  have hcol : (W2 m ρ c (Proc.devRef .tc main_v21) : S4000x1.Idx → EReal)
      = Cert.KernelIdeal.Region0.col (W1 m ρ c (Proc.devRef .tc main_v9)) (W1 m ρ c (Proc.devRef .tc main_v20)) :=
    (W2_arr m ρ c 2).trans (Cert.KernelIdeal.Region0.final (V1 m ρ) c)
  funext i
  obtain ⟨p, rfl⟩ : ∃ p : Fin 4000, i = ix1 p := ⟨i 0, eq_ix1 i⟩
  rw [Cert.RefDist.v34_apply]
  refine (Cert.LibColumns.shapeCast_a1_a_apply _ _ p).trans ?_
  rw [hcol, Cert.KernelIdeal.Prefix.entry0_q, Cert.KernelIdeal.Prefix.entry0_t]
  unfold Cert.KernelIdeal.Region0.col
  have hy : ∀ (q : Fin 16000) (k : Fin 3), Cert.ReferenceIdeal.Read.val_main_v29 (F := Ideal) (m ((c : Thread nD τ).loc main_arg0)) (m ((c : Thread nD τ).loc main_arg1)) (ix2 k q)
      = Cert.ReferenceIdeal.Read.val_main_v19 (F := Ideal) (m ((c : Thread nD τ).loc main_arg0)) (m ((c : Thread nD τ).loc main_arg1)) (ix2 q k) := fun q k => by
    rw [Cert.ReferenceIdeal.Read.val_main_v29_apply]
    exact congrArg _ (funext fun a => by match a with | ⟨0, _⟩ => rfl | ⟨1, _⟩ => rfl)
  simp only [hy]
  exact rowMin_eq _ _ (fun k => Cert.Finite.real_v9 (m ((c : Thread nD τ).loc main_arg2)) (m ((c : Thread nD τ).loc main_arg3)) h2 _) (fun q k => Cert.Finite.real_v19 (m ((c : Thread nD τ).loc main_arg0)) (m ((c : Thread nD τ).loc main_arg1)) h0 _)

/-- The second region's column, flattened, is the reference's reverse row minimum. -/
theorem reverse_col (h0 : ∀ i, IsReal ((m ((c : Thread nD τ).loc main_arg0)) i)) (h2 : ∀ i, IsReal ((m ((c : Thread nD τ).loc main_arg2)) i)) (h5 : ∀ i, ∃ r : ℝ, 0 ≤ r ∧ (m ((c : Thread nD τ).loc main_arg5)) i = (r : EReal))
    (h6 : ∀ i, IsReal ((m ((c : Thread nD τ).loc main_arg6)) i)) :
    shapeCast S32000 (W4 m ρ c (Proc.devRef .tc main_v66)) shapeCasts_S32000x1_S32000
      = Cert.ReferenceIdeal.Read.val_main_v91 (F := Ideal) (m ((c : Thread nD τ).loc main_arg0)) (m ((c : Thread nD τ).loc main_arg2)) (m ((c : Thread nD τ).loc main_arg3)) (m ((c : Thread nD τ).loc main_arg5)) (m ((c : Thread nD τ).loc main_arg6)) := by
  have hcol : (W4 m ρ c (Proc.devRef .tc main_v66) : S32000x1.Idx → EReal)
      = Cert.KernelIdeal.Region1.col (W3 m ρ c (Proc.devRef .tc main_v64)) (W3 m ρ c (Proc.devRef .tc main_v65)) :=
    (W4_arr m ρ c 2).trans (Cert.KernelIdeal.Region1.final (V3 m ρ) c)
  funext i
  obtain ⟨p, rfl⟩ : ∃ p : Fin 32000, i = ix1 p := ⟨i 0, eq_ix1 i⟩
  rw [Cert.RefDist.v91_apply]
  refine (Cert.LibColumns.shapeCast_a1_a_apply _ _ p).trans ?_
  rw [hcol, Cert.KernelIdeal.Prefix.entry1_q, Cert.KernelIdeal.Prefix.entry1_t]
  unfold Cert.KernelIdeal.Region1.col
  have hy : ∀ (q : Fin 8000) (k : Fin 3), Cert.ReferenceIdeal.Read.val_main_v86 (F := Ideal) (m ((c : Thread nD τ).loc main_arg0)) (ix2 k q) = (m ((c : Thread nD τ).loc main_arg0)) (ix2 q k) := fun q k => by
    rw [Cert.ReferenceIdeal.Read.val_main_v86_apply]
    exact congrArg _ (funext fun a => by match a with | ⟨0, _⟩ => rfl | ⟨1, _⟩ => rfl)
  simp only [hy]
  exact rowMin_eq _ _ (fun k => Cert.Finite.real_v76 (m ((c : Thread nD τ).loc main_arg2)) (m ((c : Thread nD τ).loc main_arg3)) (m ((c : Thread nD τ).loc main_arg5)) (m ((c : Thread nD τ).loc main_arg6)) h2 h5 h6 _) (fun q k => h0 _)

/-- The kernel program's result is the reference's result term of the same arguments, when the float arguments are
    finite and the square root's argument is non-negative. -/
theorem result_eq (h0 : ∀ i, IsReal ((m ((c : Thread nD τ).loc main_arg0)) i)) (h2 : ∀ i, IsReal ((m ((c : Thread nD τ).loc main_arg2)) i)) (h5 : ∀ i, ∃ r : ℝ, 0 ≤ r ∧ (m ((c : Thread nD τ).loc main_arg5)) i = (r : EReal))
    (h6 : ∀ i, IsReal ((m ((c : Thread nD τ).loc main_arg6)) i)) :
    Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = W5 m ρ c (Proc.devRef .tc main_v78) := by
  rw [Cert.Tail.ref_eq, Cert.KernelIdeal.Named.v78_eq, forward_col m ρ c h0 h2, reverse_col m ρ c h0 h2 h5 h6]

end Cert.Bridge

end
-- ==== Proof.lean ====
/-
  The certificate of a probabilistic surface-distance loss: the kernel program against its jnp reference.

  Both programs take two triangle meshes, face probabilities and two arrays of uniform samples, and return
    Σ_f p_f · d_f + 1e-4 · Σ_f (1 − p_f) + Σ_s p_{s/8} · (e_s / (max e + 1e-8)) · 0.1,
  where d_f is the least squared distance from the barycentre of simplified face f to a barycentre of an original face
  and e_s the least squared distance from sample point s on a simplified face to an original vertex. They differ in how
  the squared distances are written: the kernel program sums three squared coordinate differences inside two tiled
  nearest-neighbour regions; the reference expands |x|² + |y|² − 2⟨x, y⟩ with a matrix product. On the extended reals
  the two agree exactly where the coordinates are real numbers, which holds when the float arguments are finite and
  the argument of the square root that weights the sample points is non-negative (the precondition).

  The frames of the two kernel programs are the generated ones; the reference's is its generated run with the result
  dropped. The idealization rewrote nothing, so `preserves` is trivial. `algebraic` pairs the kernel program's run
  with its result named (Proof/KernelRun.lean) and the reference's run; the two results are one value by
  Proof/Bridge.lean.
-/
import proofs.«115603_j60292750901759_2_alg».proof.Defs
import proofs.«115603_j60292750901759_2_alg».proof.Proof.Gen.Kernel
import proofs.«115603_j60292750901759_2_alg».proof.Proof.Gen.Kernel.Frame
import proofs.«115603_j60292750901759_2_alg».proof.Proof.Gen.KernelIdeal
import proofs.«115603_j60292750901759_2_alg».proof.Proof.Gen.KernelIdeal.Frame
import proofs.«115603_j60292750901759_2_alg».proof.Proof.Gen.ReferenceIdeal
import proofs.«115603_j60292750901759_2_alg».proof.Proof.Gen.ReferenceIdeal.Run
import proofs.«115603_j60292750901759_2_alg».proof.Proof.Gen.ReferenceIdeal.Read
import proofs.«115603_j60292750901759_2_alg».proof.Proof.Gen.Pre_finite_inputs
import proofs.«115603_j60292750901759_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs run, and the reference's result is the kernel program's:
    the reference's result term is read at the kernel program's arguments (the agreement) and is then the kernel
    program's result by `Cert.Bridge.result_eq`, whose finiteness hypotheses the precondition supplies. -/
theorem algebraic : Cert.algebraic_KernelIdeal_ReferenceIdeal := by
  intro m ρ m' ρ' hpre hagree
  refine ⟨fun c => Cert.KernelIdeal.Gen.W5 m ρ c (Proc.devRef .tc Cert.KernelIdeal.main_v78),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  obtain ⟨h0, h2, h5, h6⟩ := Cert.PreFacts.of_pre _ _ _ _ _ _ _ (hpre c)
  rw [Cert.ReferenceIdeal.Read.val_main_v102_eq, e0, e1, e2, e3, e4, e5, e6]
  exact Cert.Bridge.result_eq m ρ c h0 h2 h5 h6

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
